-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12800x16 : Shape := ⟨2, ![12800, 16]⟩
abbrev S12800x64 : Shape := ⟨2, ![12800, 64]⟩
abbrev S12800x8 : Shape := ⟨2, ![12800, 8]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S160x128 : Shape := ⟨2, ![160, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S307200 : Shape := ⟨1, ![307200]⟩
abbrev S12800 : Shape := ⟨1, ![12800]⟩
abbrev S_ : Shape := ⟨0, ![]⟩

class Facts : Prop where
  bcast_S_S12800x16 : S_.BroadcastsInDim S12800x16 (![] : Fin 0 → Fin S12800x16.rank)
  reducesTo_S12800x16_S_d0_1 : S12800x16.ReducesTo [0, 1] S_
  h_S_ : 0 < S_.numel
  bcast_S_S12800x64 : S_.BroadcastsInDim S12800x64 (![] : Fin 0 → Fin S12800x64.rank)
  reducesTo_S12800x64_S_d0_1 : S12800x64.ReducesTo [0, 1] S_
  bcast_S_S12800x8 : S_.BroadcastsInDim S12800x8 (![] : Fin 0 → Fin S12800x8.rank)
  reducesTo_S12800x8_S_d0_1 : S12800x8.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S160x128 : S_.BroadcastsInDim S160x128 (![] : Fin 0 → Fin S160x128.rank)
  reducesTo_S160x128_S_d0_1 : S160x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg14 : FVec F S64x4 .f32) (main_arg15 : FVec F S4 .f32) (main_v63 : IVec S_ 1) (main_v67 : IVec S_ 1) : IVec S_ 1 :=
  let main_v68 : IVec S_ 1 := andi main_v63 main_v67
  let main_v69 : FVec F S64x4 .f32 := Host.absf main_arg14
  let main_cst_26 : FVec F S_ .f32 := constant S_ .f32 0x7F800000#32
  let main_v70 : FVec F S64x4 .f32 := broadcastInDim S64x4 ![] bcast_S_S64x4 main_cst_26
  let main_v71 : IVec S64x4 1 := cmpf .olt main_v69 main_v70
  let main_c_27 : IVec S_ 1 := constantI S_ 1 1#1
  let main_v72 : IVec S_ 1 := (fun x v => Host.reduce IntOp.andi x v reducesTo_S64x4_S_d0_1 h_S_) main_v71 main_c_27
  let main_v73 : IVec S_ 1 := andi main_v68 main_v72
  let main_v74 : FVec F S4 .f32 := Host.absf main_arg15
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  main_v78

def fn_part3 {F : FTy → Type} [FloatOps F] (main_arg11 : FVec F S128 .f32) (main_arg12 : FVec F S128x64 .f32) (main_arg13 : FVec F S64 .f32) (main_arg14 : FVec F S64x4 .f32) (main_arg15 : FVec F S4 .f32) (main_v48 : IVec S_ 1) (main_v49 : FVec F S160x128 .f32) (main_v50 : FVec F S160x128 .f32) : IVec S_ 1 :=
  let main_v51 : IVec S160x128 1 := cmpf .olt main_v49 main_v50
  let main_c_19 : IVec S_ 1 := constantI S_ 1 1#1
  let main_v52 : IVec S_ 1 := (fun x v => Host.reduce IntOp.andi x v reducesTo_S160x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S128 .f32) (main_arg8 : FVec F S128x1 .f32) (main_arg9 : FVec F S1 .f32) (main_arg10 : FVec F S160x128 .f32) (main_arg11 : FVec F S128 .f32) (main_arg12 : FVec F S128x64 .f32) (main_arg13 : FVec F S64 .f32) (main_arg14 : FVec F S64x4 .f32) (main_arg15 : FVec F S4 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S160x128 .f32 := Host.absf main_arg10
  let main_cst_18 : FVec F S_ .f32 := constant S_ .f32 0x7F800000#32
  let main_v50 : FVec F S160x128 .f32 := broadcastInDim S160x128 ![] bcast_S_S160x128 main_cst_18
  fn_part3 (F := F) main_arg11 main_arg12 main_arg13 main_arg14 main_arg15 main_v48 main_v49 main_v50

def fn_part1 {F : FTy → Type} [FloatOps F] (main_arg4 : FVec F S256x256 .f32) (main_arg5 : FVec F S256 .f32) (main_arg6 : FVec F S256x128 .f32) (main_arg7 : FVec F S128 .f32) (main_arg8 : FVec F S128x1 .f32) (main_arg9 : FVec F S1 .f32) (main_arg10 : FVec F S160x128 .f32) (main_arg11 : FVec F S128 .f32) (main_arg12 : FVec F S128x64 .f32) (main_arg13 : FVec F S64 .f32) (main_arg14 : FVec F S64x4 .f32) (main_arg15 : FVec F S4 .f32) (main_v13 : IVec S_ 1) (main_v16 : IVec S12800x8 1) : IVec S_ 1 :=
  let main_c_5 : IVec S_ 1 := constantI S_ 1 1#1
  let main_v17 : IVec S_ 1 := (fun x v => Host.reduce IntOp.andi x v reducesTo_S12800x8_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S12800x16 .f32) (main_arg1 : FVec F S12800x64 .f32) (main_arg2 : FVec F S12800x8 .f32) (main_arg3 : FVec F S12800x8 .f32) (main_arg4 : FVec F S256x256 .f32) (main_arg5 : FVec F S256 .f32) (main_arg6 : FVec F S256x128 .f32) (main_arg7 : FVec F S128 .f32) (main_arg8 : FVec F S128x1 .f32) (main_arg9 : FVec F S1 .f32) (main_arg10 : FVec F S160x128 .f32) (main_arg11 : FVec F S128 .f32) (main_arg12 : FVec F S128x64 .f32) (main_arg13 : FVec F S64 .f32) (main_arg14 : FVec F S64x4 .f32) (main_arg15 : FVec F S4 .f32) (main_arg16 : IVec S307200 32) (main_arg17 : IVec S307200 32) (main_arg18 : IVec S12800 32) : IVec S_ 1 :=
  let main_v0 : FVec F S12800x16 .f32 := Host.absf main_arg0
  let main_cst : FVec F S_ .f32 := constant S_ .f32 0x7F800000#32
  let main_v1 : FVec F S12800x16 .f32 := broadcastInDim S12800x16 ![] bcast_S_S12800x16 main_cst
  let main_v2 : IVec S12800x16 1 := cmpf .olt main_v0 main_v1
  let main_c : IVec S_ 1 := constantI S_ 1 1#1
  let main_v3 : IVec S_ 1 := (fun x v => Host.reduce IntOp.andi x v reducesTo_S12800x16_S_d0_1 h_S_) main_v2 main_c
  let main_v4 : FVec F S12800x64 .f32 := Host.absf main_arg1
  let main_cst_0 : FVec F S_ .f32 := constant S_ .f32 0x7F800000#32
  let main_v5 : FVec F S12800x64 .f32 := broadcastInDim S12800x64 ![] bcast_S_S12800x64 main_cst_0
  let main_v6 : IVec S12800x64 1 := cmpf .olt main_v4 main_v5
  let main_c_1 : IVec S_ 1 := constantI S_ 1 1#1
  let main_v7 : IVec S_ 1 := (fun x v => Host.reduce IntOp.andi x v reducesTo_S12800x64_S_d0_1 h_S_) main_v6 main_c_1
  let main_v8 : IVec S_ 1 := andi main_v3 main_v7
  let main_v9 : FVec F S12800x8 .f32 := Host.absf main_arg2
  let main_cst_2 : FVec F S_ .f32 := constant S_ .f32 0x7F800000#32
  let main_v10 : FVec F S12800x8 .f32 := broadcastInDim S12800x8 ![] bcast_S_S12800x8 main_cst_2
  let main_v11 : IVec S12800x8 1 := cmpf .olt main_v9 main_v10
  let main_c_3 : IVec S_ 1 := constantI S_ 1 1#1
  let main_v12 : IVec S_ 1 := (fun x v => Host.reduce IntOp.andi x v reducesTo_S12800x8_S_d0_1 h_S_) main_v11 main_c_3
  let main_v13 : IVec S_ 1 := andi main_v8 main_v12
  let main_v14 : FVec F S12800x8 .f32 := Host.absf main_arg3
  let main_cst_4 : FVec F S_ .f32 := constant S_ .f32 0x7F800000#32
  let main_v15 : FVec F S12800x8 .f32 := broadcastInDim S12800x8 ![] bcast_S_S12800x8 main_cst_4
  let main_v16 : IVec S12800x8 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S12800x16 : Shape := ⟨2, ![12800, 16]⟩
abbrev S12800x64 : Shape := ⟨2, ![12800, 64]⟩
abbrev S12800x8 : Shape := ⟨2, ![12800, 8]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S160x128 : Shape := ⟨2, ![160, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S307200 : Shape := ⟨1, ![307200]⟩
abbrev S12800 : Shape := ⟨1, ![12800]⟩
abbrev S_ : Shape := ⟨0, ![]⟩
abbrev S512x64 : Shape := ⟨2, ![512, 64]⟩
abbrev S12800x1 : Shape := ⟨2, ![12800, 1]⟩
abbrev S512x1 : Shape := ⟨2, ![512, 1]⟩
abbrev S307200x1 : Shape := ⟨2, ![307200, 1]⟩
abbrev S307200x16 : Shape := ⟨2, ![307200, 16]⟩
abbrev S307200x64 : Shape := ⟨2, ![307200, 64]⟩
abbrev S307200x8 : Shape := ⟨2, ![307200, 8]⟩
abbrev S307200x256 : Shape := ⟨2, ![307200, 256]⟩
abbrev S12800x160 : Shape := ⟨2, ![12800, 160]⟩
abbrev S4096x256 : Shape := ⟨2, ![4096, 256]⟩
abbrev S4096x1 : Shape := ⟨2, ![4096, 1]⟩
abbrev S1x256 : Shape := ⟨2, ![1, 256]⟩
abbrev S4096x128 : Shape := ⟨2, ![4096, 128]⟩
abbrev S1x128 : Shape := ⟨2, ![1, 128]⟩
abbrev S1x1 : Shape := ⟨2, ![1, 1]⟩
abbrev S12800x4 : Shape := ⟨2, ![12800, 4]⟩
abbrev S1600x160 : Shape := ⟨2, ![1600, 160]⟩
abbrev S1600x4 : Shape := ⟨2, ![1600, 4]⟩
abbrev S1600x128 : Shape := ⟨2, ![1600, 128]⟩
abbrev S1600x64 : Shape := ⟨2, ![1600, 64]⟩
abbrev S1x64 : Shape := ⟨2, ![1, 64]⟩
abbrev S1x4 : Shape := ⟨2, ![1, 4]⟩

abbrev nBuf : Space → Nat
  | .hbm => 131
  | .vmem => 20
  | .smem => 0
  | _ => 0

abbrev hbmTy0_0 (i : Nat) : BufTy := match i % 128 with
  | 0 => ⟨S12800x16, .f32⟩
  | 1 => ⟨S12800x64, .f32⟩
  | 2 => ⟨S12800x8, .f32⟩
  | 3 => ⟨S12800x8, .f32⟩
  | 4 => ⟨S256x256, .f32⟩
  | 5 => ⟨S256, .f32⟩
  | 6 => ⟨S256x128, .f32⟩
  | 7 => ⟨S128, .f32⟩
  | 8 => ⟨S128x1, .f32⟩
  | 9 => ⟨S1, .f32⟩
  | 10 => ⟨S160x128, .f32⟩
  | 11 => ⟨S128, .f32⟩
  | 12 => ⟨S128x64, .f32⟩
  | 13 => ⟨S64, .f32⟩
  | 14 => ⟨S64x4, .f32⟩
  | 15 => ⟨S4, .f32⟩
  | 16 => ⟨S307200, .i32⟩
  | 17 => ⟨S307200, .i32⟩
  | 18 => ⟨S12800, .i32⟩
  | 19 => ⟨S_, .f32⟩
  | 20 => ⟨S512x64, .f32⟩
  | 21 => ⟨S12800x1, .i32⟩
  | 22 => ⟨S512x64, .f32⟩
  | 23 => ⟨S_, .f32⟩
  | 24 => ⟨S12800x1, .f32⟩
  | 25 => ⟨S_, .f32⟩
  | 26 => ⟨S512x1, .f32⟩
  | 27 => ⟨S12800x1, .i32⟩
  | 28 => ⟨S512x1, .f32⟩
  | 29 => ⟨S512x64, .f32⟩
  | 30 => ⟨S512x64, .f32⟩
  | 31 => ⟨S_, .i32⟩
  | 32 => ⟨S12800, .i32⟩
  | 33 => ⟨S12800, .i1⟩
  | 34 => ⟨S_, .i32⟩
  | 35 => ⟨S12800, .i32⟩
  | 36 => ⟨S12800, .i32⟩
  | 37 => ⟨S12800, .i32⟩
  | 38 => ⟨S12800x1, .i32⟩
  | 39 => ⟨S12800x64, .f32⟩
  | 40 => ⟨S12800x16, .bf16⟩
  | 41 => ⟨S12800x64, .bf16⟩
  | 42 => ⟨S12800x8, .bf16⟩
  | 43 => ⟨S12800x8, .bf16⟩
  | 44 => ⟨S12800x64, .bf16⟩
  | 45 => ⟨S_, .i32⟩
  | 46 => ⟨S307200, .i32⟩
  | 47 => ⟨S307200, .i1⟩
  | 48 => ⟨S_, .i32⟩
  | 49 => ⟨S307200, .i32⟩
  | 50 => ⟨S307200, .i32⟩
  | 51 => ⟨S307200, .i32⟩
  | 52 => ⟨S307200x1, .i32⟩
  | 53 => ⟨S307200x16, .bf16⟩
  | 54 => ⟨S_, .i32⟩
  | 55 => ⟨S307200, .i32⟩
  | 56 => ⟨S307200, .i1⟩
  | 57 => ⟨S_, .i32⟩
  | 58 => ⟨S307200, .i32⟩
  | 59 => ⟨S307200, .i32⟩
  | 60 => ⟨S307200, .i32⟩
  | 61 => ⟨S307200x1, .i32⟩
  | 62 => ⟨S307200x64, .bf16⟩
  | 63 => ⟨S_, .i32⟩
  | 64 => ⟨S307200, .i32⟩
  | 65 => ⟨S307200, .i1⟩
  | 66 => ⟨S_, .i32⟩
  | 67 => ⟨S307200, .i32⟩
  | 68 => ⟨S307200, .i32⟩
  | 69 => ⟨S307200, .i32⟩
  | 70 => ⟨S307200x1, .i32⟩
  | 71 => ⟨S307200x8, .bf16⟩
  | 72 => ⟨S_, .i32⟩
  | 73 => ⟨S307200, .i32⟩
  | 74 => ⟨S307200, .i1⟩
  | 75 => ⟨S_, .i32⟩
  | 76 => ⟨S307200, .i32⟩
  | 77 => ⟨S307200, .i32⟩
  | 78 => ⟨S307200, .i32⟩
  | 79 => ⟨S307200x1, .i32⟩
  | 80 => ⟨S307200x8, .bf16⟩
  | 81 => ⟨S_, .i32⟩
  | 82 => ⟨S307200, .i32⟩
  | 83 => ⟨S307200, .i1⟩
  | 84 => ⟨S_, .i32⟩
  | 85 => ⟨S307200, .i32⟩
  | 86 => ⟨S307200, .i32⟩
  | 87 => ⟨S307200, .i32⟩
  | 88 => ⟨S307200x1, .i32⟩
  | 89 => ⟨S307200x16, .bf16⟩
  | 90 => ⟨S_, .i32⟩
  | 91 => ⟨S307200, .i32⟩
  | 92 => ⟨S307200, .i1⟩
  | 93 => ⟨S_, .i32⟩
  | 94 => ⟨S307200, .i32⟩
  | 95 => ⟨S307200, .i32⟩
  | 96 => ⟨S307200, .i32⟩
  | 97 => ⟨S307200x1, .i32⟩
  | 98 => ⟨S307200x64, .bf16⟩
  | 99 => ⟨S_, .i32⟩
  | 100 => ⟨S307200, .i32⟩
  | 101 => ⟨S307200, .i1⟩
  | 102 => ⟨S_, .i32⟩
  | 103 => ⟨S307200, .i32⟩
  | 104 => ⟨S307200, .i32⟩
  | 105 => ⟨S307200, .i32⟩
  | 106 => ⟨S307200x1, .i32⟩
  | 107 => ⟨S307200x8, .bf16⟩
  | 108 => ⟨S_, .i32⟩
  | 109 => ⟨S307200, .i32⟩
  | 110 => ⟨S307200, .i1⟩
  | 111 => ⟨S_, .i32⟩
  | 112 => ⟨S307200, .i32⟩
  | 113 => ⟨S307200, .i32⟩
  | 114 => ⟨S307200, .i32⟩
  | 115 => ⟨S307200x1, .i32⟩
  | 116 => ⟨S307200x8, .bf16⟩
  | 117 => ⟨S_, .i32⟩
  | 118 => ⟨S307200, .i32⟩
  | 119 => ⟨S307200, .i1⟩
  | 120 => ⟨S_, .i32⟩
  | 121 => ⟨S307200, .i32⟩
  | 122 => ⟨S307200, .i32⟩
  | 123 => ⟨S307200, .i32⟩
  | 124 => ⟨S307200x1, .i32⟩
  | 125 => ⟨S307200x64, .bf16⟩
  | 126 => ⟨S307200x256, .bf16⟩
  | 127 => ⟨S12800x160, .bf16⟩
  | _ => ⟨S12800x16, .f32⟩

abbrev hbmTy0_1 (i : Nat) : BufTy := match i % 128 with
  | 0 => ⟨S307200x1, .f32⟩
  | 1 => ⟨S307200, .f32⟩
  | 2 => ⟨S12800x4, .f32⟩
  | _ => ⟨S12800x16, .f32⟩

abbrev hbmTy (i : Nat) : BufTy := match i / 128 with
  | 0 => hbmTy0_0 i
  | 1 => hbmTy0_1 i
  | _ => ⟨S12800x16, .f32⟩

abbrev bufTy : (tb : Table) → Fin (tcTables nBuf tb) → BufTy
  | .hbm, ⟨i, _⟩ => hbmTy i
  | .local _ .vmem, ⟨0, _⟩ => ⟨S4096x256, .bf16⟩
  | .local _ .vmem, ⟨1, _⟩ => ⟨S4096x256, .bf16⟩
  | .local _ .vmem, ⟨2, _⟩ => ⟨S256x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S128x1, .f32⟩
  | .local _ .vmem, ⟨7, _⟩ => ⟨S1, .f32⟩
  | .local _ .vmem, ⟨8, _⟩ => ⟨S4096x1, .f32⟩
  | .local _ .vmem, ⟨9, _⟩ => ⟨S4096x1, .f32⟩
  | .local _ .vmem, ⟨10, _⟩ => ⟨S1600x160, .bf16⟩
  | .local _ .vmem, ⟨11, _⟩ => ⟨S1600x160, .bf16⟩
  | .local _ .vmem, ⟨12, _⟩ => ⟨S160x128, .f32⟩
  | .local _ .vmem, ⟨13, _⟩ => ⟨S128, .f32⟩
  | .local _ .vmem, ⟨14, _⟩ => ⟨S128x64, .f32⟩
  | .local _ .vmem, ⟨15, _⟩ => ⟨S64, .f32⟩
  | .local _ .vmem, ⟨16, _⟩ => ⟨S64x4, .f32⟩
  | .local _ .vmem, ⟨17, _⟩ => ⟨S4, .f32⟩
  | .local _ .vmem, ⟨18, _⟩ => ⟨S1600x4, .f32⟩
  | .local _ .vmem, ⟨19, _⟩ => ⟨S1600x4, .f32⟩
  | _, _ => ⟨S12800x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_v9 : Ref sig .tc := ⟨.hbm, 32, rfl⟩
abbrev main_v10 : Ref sig .tc := ⟨.hbm, 33, rfl⟩
abbrev main_c_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_9 : Ref sig .tc := ⟨.hbm, 72, rfl⟩
abbrev main_v42 : Ref sig .tc := ⟨.hbm, 73, rfl⟩
abbrev main_v43 : Ref sig .tc := ⟨.hbm, 74, rfl⟩
abbrev main_c_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_11 : Ref sig .tc := ⟨.hbm, 81, rfl⟩
abbrev main_v49 : Ref sig .tc := ⟨.hbm, 82, rfl⟩
abbrev main_v50 : Ref sig .tc := ⟨.hbm, 83, rfl⟩
abbrev main_c_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_13 : Ref sig .tc := ⟨.hbm, 90, rfl⟩
abbrev main_v56 : Ref sig .tc := ⟨.hbm, 91, rfl⟩
abbrev main_v57 : Ref sig .tc := ⟨.hbm, 92, rfl⟩
abbrev main_c_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_15 : Ref sig .tc := ⟨.hbm, 99, rfl⟩
abbrev main_v63 : Ref sig .tc := ⟨.hbm, 100, rfl⟩
abbrev main_v64 : Ref sig .tc := ⟨.hbm, 101, rfl⟩
abbrev main_c_16 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_17 : Ref sig .tc := ⟨.hbm, 108, rfl⟩
abbrev main_v70 : Ref sig .tc := ⟨.hbm, 109, rfl⟩
abbrev main_v71 : Ref sig .tc := ⟨.hbm, 110, rfl⟩
abbrev main_c_18 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_19 : Ref sig .tc := ⟨.hbm, 117, rfl⟩
abbrev main_v77 : Ref sig .tc := ⟨.hbm, 118, rfl⟩
abbrev main_v78 : Ref sig .tc := ⟨.hbm, 119, rfl⟩
abbrev main_c_20 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1600x160 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S160x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1600x4 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S512x64 : S_.BroadcastsInDim S512x64 (![] : Fin 0 → Fin S512x64.rank)
  bcast_S12800_S12800x1_0 : S12800.BroadcastsInDim S12800x1 (![0] : Fin 1 → Fin S12800x1.rank)
  bcast_S_S12800x1 : S_.BroadcastsInDim S12800x1 (![] : Fin 0 → Fin S12800x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S_S12800 : S_.BroadcastsInDim S12800 (![] : Fin 0 → Fin S12800.rank)
  bitsLt_bf16_f32 : FTy.bits .bf16 < FTy.bits .f32
  bcast_S_S307200 : S_.BroadcastsInDim S307200 (![] : Fin 0 → Fin S307200.rank)
  bcast_S307200_S307200x1_0 : S307200.BroadcastsInDim S307200x1 (![0] : Fin 1 → Fin S307200x1.rank)
  concatenates_S307200x16_S307200x64_S307200x8_S307200x8_S307200x16_S307200x64_S307200x8_S307200x8_S307200x64_S307200x256_d1 : Shape.Concatenates [S307200x16, S307200x64, S307200x8, S307200x8, S307200x16, S307200x64, S307200x8, S307200x8, S307200x64] S307200x256 1
  concatenates_S12800x16_S12800x64_S12800x64_S12800x8_S12800x8_S12800x160_d1 : Shape.Concatenates [S12800x16, S12800x64, S12800x64, S12800x8, S12800x8] S12800x160 1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S307200x1_S307200 : S307200x1.ShapeCasts S307200
  inb_S1600x160_S1600x160_0_0 : ∀ a, (![0, 0] : Fin 2 → Nat) a + S1600x160.size a ≤ S1600x160.size a
  h_S1600x160 : 0 < S1600x160.numel
  shapeCasts_S1600x160_S1600x160 : S1600x160.ShapeCasts S1600x160
  inb_S160x128_S160x128_0_0 : ∀ a, (![0, 0] : Fin 2 → Nat) a + S160x128.size a ≤ S160x128.size a
  h_S160x128 : 0 < S160x128.numel
  broadcasts_S1x128_S1600x128 : S1x128.Broadcasts S1600x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1600x64 : S1x64.Broadcasts S1600x64
  inb_S64x4_S64x4_0_0 : ∀ a, (![0, 0] : Fin 2 → Nat) a + S64x4.size a ≤ S64x4.size a
  h_S64x4 : 0 < S64x4.numel
  inb_S4_S4_0 : ∀ a, (![0] : Fin 1 → Nat) a + S4.size a ≤ S4.size a
  h_S4 : 0 < S4.numel
  shapeCasts_S4_S1x4 : S4.ShapeCasts S1x4
  broadcasts_S1x4_S1600x4 : S1x4.Broadcasts S1600x4
  inb_S1600x4_S1600x4_0_0 : ∀ a, (![0, 0] : Fin 2 → Nat) a + S1600x4.size a ≤ S1600x4.size a
  h_S1600x4 : 0 < S1600x4.numel
  scatter_S512x64_S12800x1_S12800x64_1_0_0_1_wf : ScatterDims.WF S512x64 S12800x1 S12800x64 [1] [0] [0] 1
  scatter_S512x1_S12800x1_S12800x1_1_0_0_1_wf : ScatterDims.WF S512x1 S12800x1 S12800x1 [1] [0] [0] 1
  gather_S512x64_S12800x1_S12800x64_1_0_n_n_0_1_164_wf : GatherDims.WF S512x64 S12800x1 S12800x64 [1] [0] [] [0] [] 1 ![1, 64]
  gather_S12800x16_S307200x1_S307200x16_1_0_n_n_0_1_116_wf : GatherDims.WF S12800x16 S307200x1 S307200x16 [1] [0] [] [0] [] 1 ![1, 16]
  gather_S12800x64_S307200x1_S307200x64_1_0_n_n_0_1_164_wf : GatherDims.WF S12800x64 S307200x1 S307200x64 [1] [0] [] [0] [] 1 ![1, 64]
  gather_S12800x8_S307200x1_S307200x8_1_0_n_n_0_1_18_wf : GatherDims.WF S12800x8 S307200x1 S307200x8 [1] [0] [] [0] [] 1 ![1, 8]
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S4096x128_S128x1_S4096x1_1_0_0_1_n_n_wf : DotDims.WF S4096x128 S128x1 S4096x1 [1] [0] [0] [1] [] []
  dot_S1600x160_S160x128_S1600x128_1_0_0_1_n_n_wf : DotDims.WF S1600x160 S160x128 S1600x128 [1] [0] [0] [1] [] []
  dot_S1600x128_S128x64_S1600x64_1_0_0_1_n_n_wf : DotDims.WF S1600x128 S128x64 S1600x64 [1] [0] [0] [1] [] []
  dot_S1600x64_S64x4_S1600x4_1_0_0_1_n_n_wf : DotDims.WF S1600x64 S64x4 S1600x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S307200x256.size a
  hwx0_0 : ∀ i : grid0.Coords, EltTy.bits .bf16 = 32 ∨ (Rect.block (s := S307200x256) S4096x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S307200x1.size a
  hwx0_7 : ∀ i : grid0.Coords, EltTy.bits .f32 = 32 ∨ (Rect.block (s := S307200x1) S4096x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1600x160.size a ≤ S12800x160.size a
  hwx1_0 : ∀ i : grid1.Coords, EltTy.bits .bf16 = 32 ∨ (Rect.block (s := S12800x160) S1600x160.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x128.size a ≤ S160x128.size a
  hwx1_1 : ∀ i : grid1.Coords, EltTy.bits .f32 = 32 ∨ (Rect.block (s := S160x128) S160x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x4.size a ≤ S64x4.size a
  hwx1_5 : ∀ i : grid1.Coords, EltTy.bits .f32 = 32 ∨ (Rect.block (s := S64x4) S64x4.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4.size a ≤ S4.size a
  hwx1_6 : ∀ i : grid1.Coords, EltTy.bits .f32 = 32 ∨ (Rect.block (s := S4) S4.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1600x4.size a ≤ S12800x4.size a
  hwx1_7 : ∀ i : grid1.Coords, EltTy.bits .f32 = 32 ∨ (Rect.block (s := S12800x4) S1600x4.size (cc1_transform_7 i) (hinb1_7 i)).WholeWords (EltTy.packing .f32)

variable [Facts₀]

def scatter_S512x64_S12800x1_S12800x64_1_0_0_1 : ScatterDims S512x64 S12800x1 S12800x64 where
  updateWindowDims := [1]
  insertedWindowDims := [0]
  scatterDimsToOperandDims := [0]
  indexVectorDim := 1
  wf := scatter_S512x64_S12800x1_S12800x64_1_0_0_1_wf
def scatter_S512x1_S12800x1_S12800x1_1_0_0_1 : ScatterDims S512x1 S12800x1 S12800x1 where
  updateWindowDims := [1]
  insertedWindowDims := [0]
  scatterDimsToOperandDims := [0]
  indexVectorDim := 1
  wf := scatter_S512x1_S12800x1_S12800x1_1_0_0_1_wf
def gather_S512x64_S12800x1_S12800x64_1_0_n_n_0_1_164 : GatherDims S512x64 S12800x1 S12800x64 where
  offsetDims := [1]
  collapsedSliceDims := [0]
  operandBatchingDims := []
  startIndicesBatchingDims := []
  startIndexMap := [0]
  indexVectorDim := 1
  sliceSizes := ![1, 64]
  wf := gather_S512x64_S12800x1_S12800x64_1_0_n_n_0_1_164_wf
def gather_S12800x16_S307200x1_S307200x16_1_0_n_n_0_1_116 : GatherDims S12800x16 S307200x1 S307200x16 where
  offsetDims := [1]
  collapsedSliceDims := [0]
  operandBatchingDims := []
  startIndicesBatchingDims := []
  startIndexMap := [0]
  indexVectorDim := 1
  sliceSizes := ![1, 16]
  wf := gather_S12800x16_S307200x1_S307200x16_1_0_n_n_0_1_116_wf
def gather_S12800x64_S307200x1_S307200x64_1_0_n_n_0_1_164 : GatherDims S12800x64 S307200x1 S307200x64 where
  offsetDims := [1]
  collapsedSliceDims := [0]
  operandBatchingDims := []
  startIndicesBatchingDims := []
  startIndexMap := [0]
  indexVectorDim := 1
  sliceSizes := ![1, 64]
  wf := gather_S12800x64_S307200x1_S307200x64_1_0_n_n_0_1_164_wf
def gather_S12800x8_S307200x1_S307200x8_1_0_n_n_0_1_18 : GatherDims S12800x8 S307200x1 S307200x8 where
  offsetDims := [1]
  collapsedSliceDims := [0]
  operandBatchingDims := []
  startIndicesBatchingDims := []
  startIndexMap := [0]
  indexVectorDim := 1
  sliceSizes := ![1, 8]
  wf := gather_S12800x8_S307200x1_S307200x8_1_0_n_n_0_1_18_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S1600x160_S160x128_S1600x128_1_0_0_1_n_n : DotDims S1600x160 S160x128 S1600x128 where
  lhsContracting := [1]
  rhsContracting := [0]
  lhsNonContracting := [0]
  rhsNonContracting := [1]
  lhsBatch := []
  rhsBatch := []
  wf := dot_S1600x160_S160x128_S1600x128_1_0_0_1_n_n_wf
def dot_S1600x128_S128x64_S1600x64_1_0_0_1_n_n : DotDims S1600x128 S128x64 S1600x64 where
  lhsContracting := [1]
  rhsContracting := [0]
  lhsNonContracting := [0]
  rhsNonContracting := [1]
  lhsBatch := []
  rhsBatch := []
  wf := dot_S1600x128_S128x64_S1600x64_1_0_0_1_n_n_wf
def dot_S1600x64_S64x4_S1600x4_1_0_0_1_n_n : DotDims S1600x64 S64x4 S1600x4 where
  lhsContracting := [1]
  rhsContracting := [0]
  lhsNonContracting := [0]
  rhsNonContracting := [1]
  lhsBatch := []
  rhsBatch := []
  wf := dot_S1600x64_S64x4_S1600x4_1_0_0_1_n_n_wf

abbrev win0_0 : Pipeline.Window sig grid0 :=
  Pipeline.Window.ofSpec (Memref.whole main_v84) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v86) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v85) S1600x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S160x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64x4.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v88) S1600x4.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S12800x16 : Shape := ⟨2, ![12800, 16]⟩
abbrev S12800x64 : Shape := ⟨2, ![12800, 64]⟩
abbrev S12800x8 : Shape := ⟨2, ![12800, 8]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S160x128 : Shape := ⟨2, ![160, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S307200 : Shape := ⟨1, ![307200]⟩
abbrev S12800 : Shape := ⟨1, ![12800]⟩
abbrev S_ : Shape := ⟨0, ![]⟩
abbrev S512x64 : Shape := ⟨2, ![512, 64]⟩
abbrev S12800x1 : Shape := ⟨2, ![12800, 1]⟩
abbrev S512x1 : Shape := ⟨2, ![512, 1]⟩
abbrev S307200x1 : Shape := ⟨2, ![307200, 1]⟩
abbrev S307200x16 : Shape := ⟨2, ![307200, 16]⟩
abbrev S307200x64 : Shape := ⟨2, ![307200, 64]⟩
abbrev S307200x8 : Shape := ⟨2, ![307200, 8]⟩
abbrev S307200x256 : Shape := ⟨2, ![307200, 256]⟩
abbrev S1x256 : Shape := ⟨2, ![1, 256]⟩
abbrev S307200x128 : Shape := ⟨2, ![307200, 128]⟩
abbrev S1x128 : Shape := ⟨2, ![1, 128]⟩
abbrev S1x1 : Shape := ⟨2, ![1, 1]⟩
abbrev S12800x160 : Shape := ⟨2, ![12800, 160]⟩
abbrev S12800x128 : Shape := ⟨2, ![12800, 128]⟩
abbrev S1x64 : Shape := ⟨2, ![1, 64]⟩
abbrev S12800x4 : Shape := ⟨2, ![12800, 4]⟩
abbrev S1x4 : Shape := ⟨2, ![1, 4]⟩

abbrev nBuf : Space → Nat
  | .hbm => 154
  | .vmem => 0
  | .smem => 0
  | _ => 0

abbrev hbmTy0_0 (i : Nat) : BufTy := match i % 128 with
  | 0 => ⟨S12800x16, .f32⟩
  | 1 => ⟨S12800x64, .f32⟩
  | 2 => ⟨S12800x8, .f32⟩
  | 3 => ⟨S12800x8, .f32⟩
  | 4 => ⟨S256x256, .f32⟩
  | 5 => ⟨S256, .f32⟩
  | 6 => ⟨S256x128, .f32⟩
  | 7 => ⟨S128, .f32⟩
  | 8 => ⟨S128x1, .f32⟩
  | 9 => ⟨S1, .f32⟩
  | 10 => ⟨S160x128, .f32⟩
  | 11 => ⟨S128, .f32⟩
  | 12 => ⟨S128x64, .f32⟩
  | 13 => ⟨S64, .f32⟩
  | 14 => ⟨S64x4, .f32⟩
  | 15 => ⟨S4, .f32⟩
  | 16 => ⟨S307200, .i32⟩
  | 17 => ⟨S307200, .i32⟩
  | 18 => ⟨S12800, .i32⟩
  | 19 => ⟨S_, .f32⟩
  | 20 => ⟨S512x64, .f32⟩
  | 21 => ⟨S12800x1, .i32⟩
  | 22 => ⟨S512x64, .f32⟩
  | 23 => ⟨S_, .f32⟩
  | 24 => ⟨S12800x1, .f32⟩
  | 25 => ⟨S_, .f32⟩
  | 26 => ⟨S512x1, .f32⟩
  | 27 => ⟨S12800x1, .i32⟩
  | 28 => ⟨S512x1, .f32⟩
  | 29 => ⟨S512x64, .f32⟩
  | 30 => ⟨S512x64, .f32⟩
  | 31 => ⟨S_, .i32⟩
  | 32 => ⟨S12800, .i32⟩
  | 33 => ⟨S12800, .i1⟩
  | 34 => ⟨S_, .i32⟩
  | 35 => ⟨S12800, .i32⟩
  | 36 => ⟨S12800, .i32⟩
  | 37 => ⟨S12800, .i32⟩
  | 38 => ⟨S12800x1, .i32⟩
  | 39 => ⟨S12800x64, .f32⟩
  | 40 => ⟨S_, .i32⟩
  | 41 => ⟨S307200, .i32⟩
  | 42 => ⟨S307200, .i1⟩
  | 43 => ⟨S_, .i32⟩
  | 44 => ⟨S307200, .i32⟩
  | 45 => ⟨S307200, .i32⟩
  | 46 => ⟨S307200, .i32⟩
  | 47 => ⟨S307200x1, .i32⟩
  | 48 => ⟨S307200x16, .f32⟩
  | 49 => ⟨S_, .i32⟩
  | 50 => ⟨S307200, .i32⟩
  | 51 => ⟨S307200, .i1⟩
  | 52 => ⟨S_, .i32⟩
  | 53 => ⟨S307200, .i32⟩
  | 54 => ⟨S307200, .i32⟩
  | 55 => ⟨S307200, .i32⟩
  | 56 => ⟨S307200x1, .i32⟩
  | 57 => ⟨S307200x64, .f32⟩
  | 58 => ⟨S_, .i32⟩
  | 59 => ⟨S307200, .i32⟩
  | 60 => ⟨S307200, .i1⟩
  | 61 => ⟨S_, .i32⟩
  | 62 => ⟨S307200, .i32⟩
  | 63 => ⟨S307200, .i32⟩
  | 64 => ⟨S307200, .i32⟩
  | 65 => ⟨S307200x1, .i32⟩
  | 66 => ⟨S307200x8, .f32⟩
  | 67 => ⟨S_, .i32⟩
  | 68 => ⟨S307200, .i32⟩
  | 69 => ⟨S307200, .i1⟩
  | 70 => ⟨S_, .i32⟩
  | 71 => ⟨S307200, .i32⟩
  | 72 => ⟨S307200, .i32⟩
  | 73 => ⟨S307200, .i32⟩
  | 74 => ⟨S307200x1, .i32⟩
  | 75 => ⟨S307200x8, .f32⟩
  | 76 => ⟨S_, .i32⟩
  | 77 => ⟨S307200, .i32⟩
  | 78 => ⟨S307200, .i1⟩
  | 79 => ⟨S_, .i32⟩
  | 80 => ⟨S307200, .i32⟩
  | 81 => ⟨S307200, .i32⟩
  | 82 => ⟨S307200, .i32⟩
  | 83 => ⟨S307200x1, .i32⟩
  | 84 => ⟨S307200x16, .f32⟩
  | 85 => ⟨S_, .i32⟩
  | 86 => ⟨S307200, .i32⟩
  | 87 => ⟨S307200, .i1⟩
  | 88 => ⟨S_, .i32⟩
  | 89 => ⟨S307200, .i32⟩
  | 90 => ⟨S307200, .i32⟩
  | 91 => ⟨S307200, .i32⟩
  | 92 => ⟨S307200x1, .i32⟩
  | 93 => ⟨S307200x64, .f32⟩
  | 94 => ⟨S_, .i32⟩
  | 95 => ⟨S307200, .i32⟩
  | 96 => ⟨S307200, .i1⟩
  | 97 => ⟨S_, .i32⟩
  | 98 => ⟨S307200, .i32⟩
  | 99 => ⟨S307200, .i32⟩
  | 100 => ⟨S307200, .i32⟩
  | 101 => ⟨S307200x1, .i32⟩
  | 102 => ⟨S307200x8, .f32⟩
  | 103 => ⟨S_, .i32⟩
  | 104 => ⟨S307200, .i32⟩
  | 105 => ⟨S307200, .i1⟩
  | 106 => ⟨S_, .i32⟩
  | 107 => ⟨S307200, .i32⟩
  | 108 => ⟨S307200, .i32⟩
  | 109 => ⟨S307200, .i32⟩
  | 110 => ⟨S307200x1, .i32⟩
  | 111 => ⟨S307200x8, .f32⟩
  | 112 => ⟨S_, .i32⟩
  | 113 => ⟨S307200, .i32⟩
  | 114 => ⟨S307200, .i1⟩
  | 115 => ⟨S_, .i32⟩
  | 116 => ⟨S307200, .i32⟩
  | 117 => ⟨S307200, .i32⟩
  | 118 => ⟨S307200, .i32⟩
  | 119 => ⟨S307200x1, .i32⟩
  | 120 => ⟨S307200x64, .f32⟩
  | 121 => ⟨S307200x256, .f32⟩
  | 122 => ⟨S307200x256, .f32⟩
  | 123 => ⟨S1x256, .f32⟩
  | 124 => ⟨S307200x256, .f32⟩
  | 125 => ⟨S307200x256, .f32⟩
  | 126 => ⟨S307200x128, .f32⟩
  | 127 => ⟨S1x128, .f32⟩
  | _ => ⟨S12800x16, .f32⟩

abbrev hbmTy0_1 (i : Nat) : BufTy := match i % 128 with
  | 0 => ⟨S307200x128, .f32⟩
  | 1 => ⟨S307200x128, .f32⟩
  | 2 => ⟨S_, .f32⟩
  | 3 => ⟨S307200x128, .f32⟩
  | 4 => ⟨S307200x128, .f32⟩
  | 5 => ⟨S307200x1, .f32⟩
  | 6 => ⟨S1x1, .f32⟩
  | 7 => ⟨S307200x1, .f32⟩
  | 8 => ⟨S307200x1, .f32⟩
  | 9 => ⟨S307200, .f32⟩
  | 10 => ⟨S12800x160, .f32⟩
  | 11 => ⟨S12800x128, .f32⟩
  | 12 => ⟨S1x128, .f32⟩
  | 13 => ⟨S12800x128, .f32⟩
  | 14 => ⟨S12800x128, .f32⟩
  | 15 => ⟨S12800x64, .f32⟩
  | 16 => ⟨S1x64, .f32⟩
  | 17 => ⟨S12800x64, .f32⟩
  | 18 => ⟨S12800x64, .f32⟩
  | 19 => ⟨S_, .f32⟩
  | 20 => ⟨S12800x64, .f32⟩
  | 21 => ⟨S12800x64, .f32⟩
  | 22 => ⟨S12800x4, .f32⟩
  | 23 => ⟨S1x4, .f32⟩
  | 24 => ⟨S12800x4, .f32⟩
  | 25 => ⟨S12800x4, .f32⟩
  | _ => ⟨S12800x16, .f32⟩

abbrev hbmTy (i : Nat) : BufTy := match i / 128 with
  | 0 => hbmTy0_0 i
  | 1 => hbmTy0_1 i
  | _ => ⟨S12800x16, .f32⟩

abbrev bufTy : (tb : Table) → Fin (tcTables nBuf tb) → BufTy
  | .hbm, ⟨i, _⟩ => hbmTy i
  | _, _ => ⟨S12800x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_v9 : Ref sig .tc := ⟨.hbm, 32, rfl⟩
abbrev main_v10 : Ref sig .tc := ⟨.hbm, 33, rfl⟩
abbrev main_c_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_v23 : Ref sig .tc := ⟨.hbm, 50, rfl⟩
abbrev main_v24 : Ref sig .tc := ⟨.hbm, 51, rfl⟩
abbrev main_c_6 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_7 : Ref sig .tc := ⟨.hbm, 58, rfl⟩
abbrev main_v30 : Ref sig .tc := ⟨.hbm, 59, rfl⟩
abbrev main_v31 : Ref sig .tc := ⟨.hbm, 60, rfl⟩
abbrev main_c_8 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_v37 : Ref sig .tc := ⟨.hbm, 68, rfl⟩
abbrev main_v38 : Ref sig .tc := ⟨.hbm, 69, rfl⟩
abbrev main_c_10 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_11 : Ref sig .tc := ⟨.hbm, 76, rfl⟩
abbrev main_v44 : Ref sig .tc := ⟨.hbm, 77, rfl⟩
abbrev main_v45 : Ref sig .tc := ⟨.hbm, 78, rfl⟩
abbrev main_c_12 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_13 : Ref sig .tc := ⟨.hbm, 85, rfl⟩
abbrev main_v51 : Ref sig .tc := ⟨.hbm, 86, rfl⟩
abbrev main_v52 : Ref sig .tc := ⟨.hbm, 87, rfl⟩
abbrev main_c_14 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_15 : Ref sig .tc := ⟨.hbm, 94, rfl⟩
abbrev main_v58 : Ref sig .tc := ⟨.hbm, 95, rfl⟩
abbrev main_v59 : Ref sig .tc := ⟨.hbm, 96, rfl⟩
abbrev main_c_16 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_17 : Ref sig .tc := ⟨.hbm, 103, rfl⟩
abbrev main_v65 : Ref sig .tc := ⟨.hbm, 104, rfl⟩
abbrev main_v66 : Ref sig .tc := ⟨.hbm, 105, rfl⟩
abbrev main_c_18 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_19 : Ref sig .tc := ⟨.hbm, 112, rfl⟩
abbrev main_v72 : Ref sig .tc := ⟨.hbm, 113, rfl⟩
abbrev main_v73 : Ref sig .tc := ⟨.hbm, 114, rfl⟩
abbrev main_c_20 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_call0_cst : Ref sig .tc := ⟨.hbm, 130, rfl⟩
abbrev main_call0_v0 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call1_cst : Ref sig .tc := ⟨.hbm, 147, rfl⟩
abbrev main_call1_v0 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩

abbrev nD : Nat := 1
abbrev τ : Topo := Topo.v7x

variable {F : FTy → Type} [FloatOps F]

class Facts₀ : Prop where
  bcast_S_S512x64 : S_.BroadcastsInDim S512x64 (![] : Fin 0 → Fin S512x64.rank)
  bcast_S12800_S12800x1_0 : S12800.BroadcastsInDim S12800x1 (![0] : Fin 1 → Fin S12800x1.rank)
  bcast_S_S12800x1 : S_.BroadcastsInDim S12800x1 (![] : Fin 0 → Fin S12800x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S_S12800 : S_.BroadcastsInDim S12800 (![] : Fin 0 → Fin S12800.rank)
  bcast_S_S307200 : S_.BroadcastsInDim S307200 (![] : Fin 0 → Fin S307200.rank)
  bcast_S307200_S307200x1_0 : S307200.BroadcastsInDim S307200x1 (![0] : Fin 1 → Fin S307200x1.rank)
  concatenates_S307200x16_S307200x64_S307200x8_S307200x8_S307200x16_S307200x64_S307200x8_S307200x8_S307200x64_S307200x256_d1 : Shape.Concatenates [S307200x16, S307200x64, S307200x8, S307200x8, S307200x16, S307200x64, S307200x8, S307200x8, S307200x64] S307200x256 1
  bcast_S256_S1x256_1 : S256.BroadcastsInDim S1x256 (![1] : Fin 1 → Fin S1x256.rank)
  bcast_S1x256_S307200x256_0_1 : S1x256.BroadcastsInDim S307200x256 (![0, 1] : Fin 2 → Fin S307200x256.rank)
  bcast_S128_S1x128_1 : S128.BroadcastsInDim S1x128 (![1] : Fin 1 → Fin S1x128.rank)
  bcast_S1x128_S307200x128_0_1 : S1x128.BroadcastsInDim S307200x128 (![0, 1] : Fin 2 → Fin S307200x128.rank)
  bcast_S_S307200x128 : S_.BroadcastsInDim S307200x128 (![] : Fin 0 → Fin S307200x128.rank)
  bcast_S1_S1x1_1 : S1.BroadcastsInDim S1x1 (![1] : Fin 1 → Fin S1x1.rank)
  bcast_S1x1_S307200x1_0_1 : S1x1.BroadcastsInDim S307200x1 (![0, 1] : Fin 2 → Fin S307200x1.rank)
  shapeCasts_S307200x1_S307200 : S307200x1.ShapeCasts S307200
  concatenates_S12800x16_S12800x64_S12800x64_S12800x8_S12800x8_S12800x160_d1 : Shape.Concatenates [S12800x16, S12800x64, S12800x64, S12800x8, S12800x8] S12800x160 1
  bcast_S1x128_S12800x128_0_1 : S1x128.BroadcastsInDim S12800x128 (![0, 1] : Fin 2 → Fin S12800x128.rank)
  bcast_S64_S1x64_1 : S64.BroadcastsInDim S1x64 (![1] : Fin 1 → Fin S1x64.rank)
  bcast_S1x64_S12800x64_0_1 : S1x64.BroadcastsInDim S12800x64 (![0, 1] : Fin 2 → Fin S12800x64.rank)
  bcast_S_S12800x64 : S_.BroadcastsInDim S12800x64 (![] : Fin 0 → Fin S12800x64.rank)
  bcast_S4_S1x4_1 : S4.BroadcastsInDim S1x4 (![1] : Fin 1 → Fin S1x4.rank)
  bcast_S1x4_S12800x4_0_1 : S1x4.BroadcastsInDim S12800x4 (![0, 1] : Fin 2 → Fin S12800x4.rank)
  scatter_S512x64_S12800x1_S12800x64_1_0_0_1_wf : ScatterDims.WF S512x64 S12800x1 S12800x64 [1] [0] [0] 1
  scatter_S512x1_S12800x1_S12800x1_1_0_0_1_wf : ScatterDims.WF S512x1 S12800x1 S12800x1 [1] [0] [0] 1
  gather_S512x64_S12800x1_S12800x64_1_0_n_n_0_1_164_wf : GatherDims.WF S512x64 S12800x1 S12800x64 [1] [0] [] [0] [] 1 ![1, 64]
  gather_S12800x16_S307200x1_S307200x16_1_0_n_n_0_1_116_wf : GatherDims.WF S12800x16 S307200x1 S307200x16 [1] [0] [] [0] [] 1 ![1, 16]
  gather_S12800x64_S307200x1_S307200x64_1_0_n_n_0_1_164_wf : GatherDims.WF S12800x64 S307200x1 S307200x64 [1] [0] [] [0] [] 1 ![1, 64]
  gather_S12800x8_S307200x1_S307200x8_1_0_n_n_0_1_18_wf : GatherDims.WF S12800x8 S307200x1 S307200x8 [1] [0] [] [0] [] 1 ![1, 8]
  dot_S307200x256_S256x256_S307200x256_1_0_0_1_n_n_wf : DotDims.WF S307200x256 S256x256 S307200x256 [1] [0] [0] [1] [] []
  dot_S307200x256_S256x128_S307200x128_1_0_0_1_n_n_wf : DotDims.WF S307200x256 S256x128 S307200x128 [1] [0] [0] [1] [] []
  dot_S307200x128_S128x1_S307200x1_1_0_0_1_n_n_wf : DotDims.WF S307200x128 S128x1 S307200x1 [1] [0] [0] [1] [] []
  dot_S12800x160_S160x128_S12800x128_1_0_0_1_n_n_wf : DotDims.WF S12800x160 S160x128 S12800x128 [1] [0] [0] [1] [] []
  dot_S12800x128_S128x64_S12800x64_1_0_0_1_n_n_wf : DotDims.WF S12800x128 S128x64 S12800x64 [1] [0] [0] [1] [] []
  dot_S12800x64_S64x4_S12800x4_1_0_0_1_n_n_wf : DotDims.WF S12800x64 S64x4 S12800x4 [1] [0] [0] [1] [] []

variable [Facts₀]

def scatter_S512x64_S12800x1_S12800x64_1_0_0_1 : ScatterDims S512x64 S12800x1 S12800x64 where
  updateWindowDims := [1]
  insertedWindowDims := [0]
  scatterDimsToOperandDims := [0]
  indexVectorDim := 1
  wf := scatter_S512x64_S12800x1_S12800x64_1_0_0_1_wf
def scatter_S512x1_S12800x1_S12800x1_1_0_0_1 : ScatterDims S512x1 S12800x1 S12800x1 where
  updateWindowDims := [1]
  insertedWindowDims := [0]
  scatterDimsToOperandDims := [0]
  indexVectorDim := 1
  wf := scatter_S512x1_S12800x1_S12800x1_1_0_0_1_wf
def gather_S512x64_S12800x1_S12800x64_1_0_n_n_0_1_164 : GatherDims S512x64 S12800x1 S12800x64 where
  offsetDims := [1]
  collapsedSliceDims := [0]
  operandBatchingDims := []
  startIndicesBatchingDims := []
  startIndexMap := [0]
  indexVectorDim := 1
  sliceSizes := ![1, 64]
  wf := gather_S512x64_S12800x1_S12800x64_1_0_n_n_0_1_164_wf
def gather_S12800x16_S307200x1_S307200x16_1_0_n_n_0_1_116 : GatherDims S12800x16 S307200x1 S307200x16 where
  offsetDims := [1]
  collapsedSliceDims := [0]
  operandBatchingDims := []
  startIndicesBatchingDims := []
  startIndexMap := [0]
  indexVectorDim := 1
  sliceSizes := ![1, 16]
  wf := gather_S12800x16_S307200x1_S307200x16_1_0_n_n_0_1_116_wf
def gather_S12800x64_S307200x1_S307200x64_1_0_n_n_0_1_164 : GatherDims S12800x64 S307200x1 S307200x64 where
  offsetDims := [1]
  collapsedSliceDims := [0]
  operandBatchingDims := []
  startIndicesBatchingDims := []
  startIndexMap := [0]
  indexVectorDim := 1
  sliceSizes := ![1, 64]
  wf := gather_S12800x64_S307200x1_S307200x64_1_0_n_n_0_1_164_wf
def gather_S12800x8_S307200x1_S307200x8_1_0_n_n_0_1_18 : GatherDims S12800x8 S307200x1 S307200x8 where
  offsetDims := [1]
  collapsedSliceDims := [0]
  operandBatchingDims := []
  startIndicesBatchingDims := []
  startIndexMap := [0]
  indexVectorDim := 1
  sliceSizes := ![1, 8]
  wf := gather_S12800x8_S307200x1_S307200x8_1_0_n_n_0_1_18_wf
def dot_S307200x256_S256x256_S307200x256_1_0_0_1_n_n : DotDims S307200x256 S256x256 S307200x256 where
  lhsContracting := [1]
  rhsContracting := [0]
  lhsNonContracting := [0]
  rhsNonContracting := [1]
  lhsBatch := []
  rhsBatch := []
  wf := dot_S307200x256_S256x256_S307200x256_1_0_0_1_n_n_wf
def dot_S307200x256_S256x128_S307200x128_1_0_0_1_n_n : DotDims S307200x256 S256x128 S307200x128 where
  lhsContracting := [1]
  rhsContracting := [0]
  lhsNonContracting := [0]
  rhsNonContracting := [1]
  lhsBatch := []
  rhsBatch := []
  wf := dot_S307200x256_S256x128_S307200x128_1_0_0_1_n_n_wf
def dot_S307200x128_S128x1_S307200x1_1_0_0_1_n_n : DotDims S307200x128 S128x1 S307200x1 where
  lhsContracting := [1]
  rhsContracting := [0]
  lhsNonContracting := [0]
  rhsNonContracting := [1]
  lhsBatch := []
  rhsBatch := []
  wf := dot_S307200x128_S128x1_S307200x1_1_0_0_1_n_n_wf
def dot_S12800x160_S160x128_S12800x128_1_0_0_1_n_n : DotDims S12800x160 S160x128 S12800x128 where
  lhsContracting := [1]
  rhsContracting := [0]
  lhsNonContracting := [0]
  rhsNonContracting := [1]
  lhsBatch := []
  rhsBatch := []
  wf := dot_S12800x160_S160x128_S12800x128_1_0_0_1_n_n_wf
def dot_S12800x128_S128x64_S12800x64_1_0_0_1_n_n : DotDims S12800x128 S128x64 S12800x64 where
  lhsContracting := [1]
  rhsContracting := [0]
  lhsNonContracting := [0]
  rhsNonContracting := [1]
  lhsBatch := []
  rhsBatch := []
  wf := dot_S12800x128_S128x64_S12800x64_1_0_0_1_n_n_wf
def dot_S12800x64_S64x4_S12800x4_1_0_0_1_n_n : DotDims S12800x64 S64x4 S12800x4 where
  lhsContracting := [1]
  rhsContracting := [0]
  lhsNonContracting := [0]
  rhsNonContracting := [1]
  lhsBatch := []
  rhsBatch := []
  wf := dot_S12800x64_S64x4_S12800x4_1_0_0_1_n_n_wf

class Facts : Prop extends Facts₀ where

variable [Facts]
-- ==== Proof.KernelEdgeBody.lean ====
/-
  The edge network's region, at whatever the TensorCore's buffers hold when the region is entered (a parameter `V`).

  The region runs one body per grid point on a 4096-row block of the 256-wide edge features through 256 → 256 → 128 → 1:
  it reads the point's block of rows and the three weight matrices and bias vectors whole, and stores into the output's
  block the rows' images under  x ↦ relu ((x·W₀ + b₀)·W₁ + b₁)·W₂ + b₂.  Here: what each window's staging buffer holds
  when the body starts (its block of the array as the region found it: the inputs are never written), the output block
  the body leaves as one store of that expression of the seven blocks read, and the body's run from those contents to
  those — what the launch of the region asks of its body.
-/
import proofs.«122221_j57234734186752_1_alg».proof.Proof.Gen.Kernel.Launch
import proofs.«122221_j57234734186752_1_alg».proof.Proof.Gen.Kernel.Skeleton
import proofs.«122221_j57234734186752_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched at that point or kept from an
    earlier one (the block index has then not moved), for any proof data over `V`'s arrays whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point, whether fetched at that point or kept from an
    earlier one (the block index has then not moved), for any proof data over `V`'s arrays whose body leaves the block in place. -/
theorem before1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point, whether fetched at that point or kept from an
    earlier one (the block index has then not moved), for any proof data over `V`'s arrays whose body leaves the block in place. -/
theorem before2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point, whether fetched at that point or kept from an
    earlier one (the block index has then not moved), for any proof data over `V`'s arrays whose body leaves the block in place. -/
theorem before3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds its block at every point, whether fetched at that point or kept from an
    earlier one (the block index has then not moved), for any proof data over `V`'s arrays whose body leaves the block in place. -/
theorem before4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's staging buffer holds its block at every point, whether fetched at that point or kept from an
    earlier one (the block index has then not moved), for any proof data over `V`'s arrays whose body leaves the block in place. -/
theorem before5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's staging buffer holds its block at every point, whether fetched at that point or kept from an
    earlier one (the block index has then not moved), for any proof data over `V`'s arrays whose body leaves the block in place. -/
theorem before6_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and the one store take a whole buffer -/

abbrev rect0 : Rect S4096x256 := Rect.unit (s := S4096x256) ![0, 0] S4096x256.size inb_S4096x256_S4096x256_0_0
abbrev rect1 : Rect S256x256 := Rect.unit (s := S256x256) ![0, 0] S256x256.size inb_S256x256_S256x256_0_0
abbrev rect2 : Rect S256 := Rect.unit (s := S256) ![0] S256.size inb_S256_S256_0
abbrev rect3 : Rect S256x128 := Rect.unit (s := S256x128) ![0, 0] S256x128.size inb_S256x128_S256x128_0_0
abbrev rect4 : Rect S128 := Rect.unit (s := S128) ![0] S128.size inb_S128_S128_0
abbrev rect5 : Rect S128x1 := Rect.unit (s := S128x1) ![0, 0] S128x1.size inb_S128x1_S128x1_0_0
abbrev rect6 : Rect S1 := Rect.unit (s := S1) ![0] S1.size inb_S1_S1_0
abbrev rect7 : Rect S4096x1 := Rect.unit (s := S4096x1) ![0, 0] S4096x1.size inb_S4096x1_S4096x1_0_0

/-- The output block after the body, from the seven blocks read: its one store, of the network's expression of them. -/
def outBlock (x0 : Vec F S4096x256 .bf16) (x1 : Vec F S256x256 .f32) (x2 : Vec F S256 .f32) (x3 : Vec F S256x128 .f32) (x4 : Vec F S128 .f32) (x5 : Vec F S128x1 .f32) (x6 : Vec F S1 .f32) : Vec F S4096x1 .f32 :=
  View.canon [⟨rect7, k0_pay1 (View.ld x0 rect0) (View.ld x1 rect1) (View.ld x2 rect2) (View.ld x3 rect3) (View.ld x4 rect4) (View.ld x5 rect5) (View.ld x6 rect6)⟩]

/-- The one store takes the whole block, so it covers it. -/
theorem cover (p0 : Vec F S4096x1 .f32) (y : S4096x1.Idx) :
    ∃ pc ∈ ([⟨rect7, p0⟩] : List (View.Piece (Elt F) S4096x1 .f32)), y ∈ pc.1.set :=
  View.cover_of_tiled [⟨rect7, p0⟩] S4096x1.size (by rfl) y

/-! ## The body's run -/

set_option maxHeartbeats 1000000 in
/-- The body on whole staging buffers, the inputs' at contents `x₀ … x₆` and the output's at anything, runs to the
    continuation with the inputs' as they were and the output's at `outBlock` of them. -/
theorem sound_kernel (c : Dev nD) (E : Set ℕ) (i : grid0.Coords) (arg1 : Memref sig .tc .vmem S4096x256 .bf16) (harg1 : arg1.IsWhole) (arg2 : Memref sig .tc .vmem S256x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S128x1 .f32) (harg6 : arg6.IsWhole) (arg7 : Memref sig .tc .vmem S1 .f32) (harg7 : arg7.IsWhole) (arg8 : Memref sig .tc .vmem S4096x1 .f32) (harg8 : arg8.IsWhole)
    (x0 : Vec F S4096x256 .bf16) (x1 : Vec F S256x256 .f32) (x2 : Vec F S256 .f32) (x3 : Vec F S256x128 .f32) (x4 : Vec F S128 .f32) (x5 : Vec F S128x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

/-! ## The region's proof data -/

/-- On core `c`: the arrays as the region finds them; after the body at point `t` each input's buffer at its block and
    the output's at `outBlock` of the input blocks; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => outBlock (blockAt V c 0 t) (blockAt V c 1 t) (blockAt V c 2 t) (blockAt V c 3 t) (blockAt V c 4 t) (blockAt V c 5 t) (blockAt V c 6 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) : (dat V c).after 3 t = blockAt V c 3 t := by dsimp only [dat]
theorem after4 (c : Dev nD) (t : Fin cfg0.N) : (dat V c).after 4 t = blockAt V c 4 t := by dsimp only [dat]
theorem after5 (c : Dev nD) (t : Fin cfg0.N) : (dat V c).after 5 t = blockAt V c 5 t := by dsimp only [dat]
theorem after6 (c : Dev nD) (t : Fin cfg0.N) : (dat V c).after 6 t = blockAt V c 6 t := by dsimp only [dat]
theorem after7 (c : Dev nD) (t : Fin cfg0.N) : (dat V c).after 7 t = outBlock (blockAt V c 0 t) (blockAt V c 1 t) (blockAt V c 2 t) (blockAt V c 3 t) (blockAt V c 4 t) (blockAt V c 5 t) (blockAt V c 6 t) := by dsimp only [dat]

theorem before0 (c : Dev nD) (t : Fin cfg0.N) (d) : (dat V c).before 0 t d = blockAt V c 0 t :=
  before0_of V (dat V c) (dat_A V c 0) (after0 V c) t d
theorem before1 (c : Dev nD) (t : Fin cfg0.N) (d) : (dat V c).before 1 t d = blockAt V c 1 t :=
  before1_of V (dat V c) (dat_A V c 1) (after1 V c) t d
theorem before2 (c : Dev nD) (t : Fin cfg0.N) (d) : (dat V c).before 2 t d = blockAt V c 2 t :=
  before2_of V (dat V c) (dat_A V c 2) (after2 V c) t d
theorem before3 (c : Dev nD) (t : Fin cfg0.N) (d) : (dat V c).before 3 t d = blockAt V c 3 t :=
  before3_of V (dat V c) (dat_A V c 3) (after3 V c) t d
theorem before4 (c : Dev nD) (t : Fin cfg0.N) (d) : (dat V c).before 4 t d = blockAt V c 4 t :=
  before4_of V (dat V c) (dat_A V c 4) (after4 V c) t d
theorem before5 (c : Dev nD) (t : Fin cfg0.N) (d) : (dat V c).before 5 t d = blockAt V c 5 t :=
  before5_of V (dat V c) (dat_A V c 5) (after5 V c) t d
theorem before6 (c : Dev nD) (t : Fin cfg0.N) (d) : (dat V c).before 6 t d = blockAt V c 6 t :=
  before6_of V (dat V c) (dat_A V c 6) (after6 V c) t d

/-! ## What the launch asks of the body, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W0, bigSep_W0]
  exact sound_body V c t

end Cert.Kernel.Edge

end
-- ==== Proof.KernelNodeBody.lean ====
/-
  The node network's region, at whatever the TensorCore's buffers hold when the region is entered (a parameter `V`).

  The region runs one body per grid point on a 1600-row block of the 160-wide node features through 160 → 128 → 64 → 4:
  it reads the point's block of rows and the three weight matrices and bias vectors whole, and stores into the output's
  block the rows' images under  x ↦ relu ((x·W₀ + b₀)·W₁ + b₁)·W₂ + b₂.  Here: what each window's staging buffer holds
  when the body starts (its block of the array as the region found it: the inputs are never written), the output block
  the body leaves as one store of that expression of the seven blocks read, and the body's run from those contents to
  those — what the launch of the region asks of its body.
-/
import proofs.«122221_j57234734186752_1_alg».proof.Proof.Gen.Kernel.Launch
import proofs.«122221_j57234734186752_1_alg».proof.Proof.Gen.Kernel.Skeleton
import proofs.«122221_j57234734186752_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched at that point or kept from an
    earlier one (the block index has then not moved), for any proof data over `V`'s arrays whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point, whether fetched at that point or kept from an
    earlier one (the block index has then not moved), for any proof data over `V`'s arrays whose body leaves the block in place. -/
theorem before1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point, whether fetched at that point or kept from an
    earlier one (the block index has then not moved), for any proof data over `V`'s arrays whose body leaves the block in place. -/
theorem before2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point, whether fetched at that point or kept from an
    earlier one (the block index has then not moved), for any proof data over `V`'s arrays whose body leaves the block in place. -/
theorem before3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds its block at every point, whether fetched at that point or kept from an
    earlier one (the block index has then not moved), for any proof data over `V`'s arrays whose body leaves the block in place. -/
theorem before4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's staging buffer holds its block at every point, whether fetched at that point or kept from an
    earlier one (the block index has then not moved), for any proof data over `V`'s arrays whose body leaves the block in place. -/
theorem before5_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's staging buffer holds its block at every point, whether fetched at that point or kept from an
    earlier one (the block index has then not moved), for any proof data over `V`'s arrays whose body leaves the block in place. -/
theorem before6_of {c : Dev nD} (dat : Dat τ (Elt F) Unit ℕ (UR sig nD τ) ℕ cfg1 c) (hA : dat.A 6 = V c (Pipeline.arrRef spec1 6))
    (hafter : ∀ t, dat.after 6 t = blockAt V c 6 t) (t : Fin cfg1.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and the one store take a whole buffer -/

abbrev rect0 : Rect S1600x160 := Rect.unit (s := S1600x160) ![0, 0] S1600x160.size inb_S1600x160_S1600x160_0_0
abbrev rect1 : Rect S160x128 := Rect.unit (s := S160x128) ![0, 0] S160x128.size inb_S160x128_S160x128_0_0
abbrev rect2 : Rect S128 := Rect.unit (s := S128) ![0] S128.size inb_S128_S128_0
abbrev rect3 : Rect S128x64 := Rect.unit (s := S128x64) ![0, 0] S128x64.size inb_S128x64_S128x64_0_0
abbrev rect4 : Rect S64 := Rect.unit (s := S64) ![0] S64.size inb_S64_S64_0
abbrev rect5 : Rect S64x4 := Rect.unit (s := S64x4) ![0, 0] S64x4.size inb_S64x4_S64x4_0_0
abbrev rect6 : Rect S4 := Rect.unit (s := S4) ![0] S4.size inb_S4_S4_0
abbrev rect7 : Rect S1600x4 := Rect.unit (s := S1600x4) ![0, 0] S1600x4.size inb_S1600x4_S1600x4_0_0

/-- The output block after the body, from the seven blocks read: its one store, of the network's expression of them. -/
def outBlock (x0 : Vec F S1600x160 .bf16) (x1 : Vec F S160x128 .f32) (x2 : Vec F S128 .f32) (x3 : Vec F S128x64 .f32) (x4 : Vec F S64 .f32) (x5 : Vec F S64x4 .f32) (x6 : Vec F S4 .f32) : Vec F S1600x4 .f32 :=
  View.canon [⟨rect7, k1_pay1 (View.ld x0 rect0) (View.ld x1 rect1) (View.ld x2 rect2) (View.ld x3 rect3) (View.ld x4 rect4) (View.ld x5 rect5) (View.ld x6 rect6)⟩]

/-- The one store takes the whole block, so it covers it. -/
theorem cover (p0 : Vec F S1600x4 .f32) (y : S1600x4.Idx) :
    ∃ pc ∈ ([⟨rect7, p0⟩] : List (View.Piece (Elt F) S1600x4 .f32)), y ∈ pc.1.set :=
  View.cover_of_tiled [⟨rect7, p0⟩] S1600x4.size (by rfl) y

/-! ## The body's run -/

set_option maxHeartbeats 1000000 in
/-- The body on whole staging buffers, the inputs' at contents `x₀ … x₆` and the output's at anything, runs to the
    continuation with the inputs' as they were and the output's at `outBlock` of them. -/
theorem sound_kernel (c : Dev nD) (E : Set ℕ) (i : grid1.Coords) (arg1 : Memref sig .tc .vmem S1600x160 .bf16) (harg1 : arg1.IsWhole) (arg2 : Memref sig .tc .vmem S160x128 .f32) (harg2 : arg2.IsWhole) (arg3 : Memref sig .tc .vmem S128 .f32) (harg3 : arg3.IsWhole) (arg4 : Memref sig .tc .vmem S128x64 .f32) (harg4 : arg4.IsWhole) (arg5 : Memref sig .tc .vmem S64 .f32) (harg5 : arg5.IsWhole) (arg6 : Memref sig .tc .vmem S64x4 .f32) (harg6 : arg6.IsWhole) (arg7 : Memref sig .tc .vmem S4 .f32) (harg7 : arg7.IsWhole) (arg8 : Memref sig .tc .vmem S1600x4 .f32) (harg8 : arg8.IsWhole)
    (x0 : Vec F S1600x160 .bf16) (x1 : Vec F S160x128 .f32) (x2 : Vec F S128 .f32) (x3 : Vec F S128x64 .f32) (x4 : Vec F S64 .f32) (x5 : Vec F S64x4 .f32) (x6 : Vec F S4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

/-! ## The region's proof data -/

/-- On core `c`: the arrays as the region finds them; after the body at point `t` each input's buffer at its block and
    the output's at `outBlock` of the input blocks; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => outBlock (blockAt V c 0 t) (blockAt V c 1 t) (blockAt V c 2 t) (blockAt V c 3 t) (blockAt V c 4 t) (blockAt V c 5 t) (blockAt V c 6 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = blockAt V c 5 t := by dsimp only [dat]
theorem after6 (c : Dev nD) (t : Fin cfg1.N) : (dat V c).after 6 t = blockAt V c 6 t := by dsimp only [dat]
theorem after7 (c : Dev nD) (t : Fin cfg1.N) : (dat V c).after 7 t = outBlock (blockAt V c 0 t) (blockAt V c 1 t) (blockAt V c 2 t) (blockAt V c 3 t) (blockAt V c 4 t) (blockAt V c 5 t) (blockAt V c 6 t) := by dsimp only [dat]

theorem before0 (c : Dev nD) (t : Fin cfg1.N) (d) : (dat V c).before 0 t d = blockAt V c 0 t :=
  before0_of V (dat V c) (dat_A V c 0) (after0 V c) t d
theorem before1 (c : Dev nD) (t : Fin cfg1.N) (d) : (dat V c).before 1 t d = blockAt V c 1 t :=
  before1_of V (dat V c) (dat_A V c 1) (after1 V c) t d
theorem before2 (c : Dev nD) (t : Fin cfg1.N) (d) : (dat V c).before 2 t d = blockAt V c 2 t :=
  before2_of V (dat V c) (dat_A V c 2) (after2 V c) t d
theorem before3 (c : Dev nD) (t : Fin cfg1.N) (d) : (dat V c).before 3 t d = blockAt V c 3 t :=
  before3_of V (dat V c) (dat_A V c 3) (after3 V c) t d
theorem before4 (c : Dev nD) (t : Fin cfg1.N) (d) : (dat V c).before 4 t d = blockAt V c 4 t :=
  before4_of V (dat V c) (dat_A V c 4) (after4 V c) t d
theorem before5 (c : Dev nD) (t : Fin cfg1.N) (d) : (dat V c).before 5 t d = blockAt V c 5 t :=
  before5_of V (dat V c) (dat_A V c 5) (after5 V c) t d
theorem before6 (c : Dev nD) (t : Fin cfg1.N) (d) : (dat V c).before 6 t d = blockAt V c 6 t :=
  before6_of V (dat V c) (dat_A V c 6) (after6 V c) t d

/-! ## What the launch asks of the body, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid1.coords t) _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W1, bigSep_W1]
  exact sound_body V c t

end Cert.Kernel.Node

end
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.KernelRun.lean ====
/-
  The program's run from launch to return, as four segments: the host operations that build the two feature arrays
  (the per-graph mean, the row gathers, the two concatenations), the edge network's region, the one host operation that
  drops the edge output's unit axis, and the node network's region.

  The TensorCore's buffer contents are followed through the segments as a fold from the launch memory: a stretch of host
  operations applies its operations in order; a region leaves its input arrays as it found them and its output array at
  what its grid points wrote back, every other buffer untouched. From the run: every unscoped buffer's final contents by
  name, the nineteen argument arrays unchanged (no host operation writes one and each region only reads them), and the
  two results as what the regions' write-backs leave.
-/
import proofs.«122221_j57234734186752_1_alg».proof.Proof.KernelEdgeBody
import proofs.«122221_j57234734186752_1_alg».proof.Proof.KernelNodeBody
import proofs.«122221_j57234734186752_1_alg».proof.Proof.LibWrittenRefs

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the host operations before the edge region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the edge region's exit: its arrays at what the region leaves, every other buffer as entered. -/
def W2 (c : Dev nD) : Valuation τ sig (Elt F) :=
  Pipeline.withArrays spec0 c (W1 m ρ c) fun w => (Edge.dat (V1 m ρ) c).arrAt w cfg0.N
theorem W2_arr (c : Dev nD) (w : Fin cfg0.W) :
    W2 m ρ c (Proc.devRef .tc (Pipeline.arrRef spec0 w)) = (Edge.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (Edge.dat (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape between the regions. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the node region's exit. -/
def W4 (c : Dev nD) : Valuation τ sig (Elt F) :=
  Pipeline.withArrays spec1 c (W3 m ρ c) fun w => (Node.dat (V3 m ρ) c).arrAt w cfg1.N
theorem W4_arr (c : Dev nD) (w : Fin cfg1.W) :
    W4 m ρ c (Proc.devRef .tc (Pipeline.arrRef spec1 w)) = (Node.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exit1_arr (c : Dev nD) (w : Fin cfg1.W) : (Node.dat (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Which buffers the host operations write -/

/-- The buffers the host operations before the edge region write, in order: one each. -/
def written0 : List (Ref sig .tc) :=
  [main_cst, main_v0, main_v1, main_v2, main_cst_0, main_v3, main_cst_1, main_v4, main_v5, main_v6, main_v7, main_v8, main_c, main_v9, main_v10, main_c_2, main_v11, main_v12, main_v13, main_v14, main_v15, main_v16, main_v17, main_v18, main_v19, main_v20, main_c_3, main_v21, main_v22, main_c_4, main_v23, main_v24, main_v25, main_v26, main_v27, main_c_5, main_v28, main_v29, main_c_6, main_v30, main_v31, main_v32, main_v33, main_v34, main_c_7, main_v35, main_v36, main_c_8, main_v37, main_v38, main_v39, main_v40, main_v41, main_c_9, main_v42, main_v43, main_c_10, main_v44, main_v45, main_v46, main_v47, main_v48, main_c_11, main_v49, main_v50, main_c_12, main_v51, main_v52, main_v53, main_v54, main_v55, main_c_13, main_v56, main_v57, main_c_14, main_v58, main_v59, main_v60, main_v61, main_v62, main_c_15, main_v63, main_v64, main_c_16, main_v65, main_v66, main_v67, main_v68, main_v69, main_c_17, main_v70, main_v71, main_c_18, main_v72, main_v73, main_v74, main_v75, main_v76, main_c_19, main_v77, main_v78, main_c_20, main_v79, main_v80, main_v81, main_v82, main_v83, main_v84, main_v85]

set_option maxHeartbeats 4000000 in
theorem written0_eq : (hostOps0 (F := F)).map (fun op => op.writes)
    = written0.map (fun r => ({Proc.devRef (τ := τ) .tc r} : Finset (DevRef τ sig))) := by
  simp only [hostOps0, written0, List.map_cons, List.map_nil, StableHlo.nullary_writes, StableHlo.unary_writes,
    StableHlo.binary_writes, StableHlo.ternary_writes, StableHlo.nary_writes]

theorem written1_eq : (hostOps1 (F := F)).map (fun op => op.writes)
    = [main_v87].map (fun r => ({Proc.devRef (τ := τ) .tc r} : Finset (DevRef τ sig))) := by
  simp only [hostOps1, List.map_cons, List.map_nil, StableHlo.reshape_writes]

/-- A buffer the first stretch does not write enters the edge region as launched. -/
theorem W1_kept (c : Dev nD) (r : Ref sig .tc) (hr : r ∉ written0) :
    W1 m ρ c (Proc.devRef .tc r) = W0 m ρ c (Proc.devRef .tc r) :=
  StableHlo.after_of_map_writes_eq (written0_eq (F := F)) (W0 m ρ c) hr

/-- A buffer other than the reshaped edge output enters the node region as it left the edge region. -/
theorem W3_kept (c : Dev nD) (r : Ref sig .tc) (hr : r ∉ [main_v87]) :
    W3 m ρ c (Proc.devRef .tc r) = W2 m ρ c (Proc.devRef .tc r) :=
  StableHlo.after_of_map_writes_eq (written1_eq (F := F)) (W2 m ρ c) hr

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_kept m ρ c main_arg0 (by decide)
    _ = W1 m ρ c (Proc.devRef .tc main_arg0) := W2_of_ne m ρ c main_arg0 (by decide)
    _ = W0 m ρ c (Proc.devRef .tc main_arg0) := W1_kept m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_kept m ρ c main_arg1 (by decide)
    _ = W1 m ρ c (Proc.devRef .tc main_arg1) := W2_of_ne m ρ c main_arg1 (by decide)
    _ = W0 m ρ c (Proc.devRef .tc main_arg1) := W1_kept m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_kept m ρ c main_arg2 (by decide)
    _ = W1 m ρ c (Proc.devRef .tc main_arg2) := W2_of_ne m ρ c main_arg2 (by decide)
    _ = W0 m ρ c (Proc.devRef .tc main_arg2) := W1_kept m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_kept m ρ c main_arg3 (by decide)
    _ = W1 m ρ c (Proc.devRef .tc main_arg3) := W2_of_ne m ρ c main_arg3 (by decide)
    _ = W0 m ρ c (Proc.devRef .tc main_arg3) := W1_kept m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_kept m ρ c main_arg4 (by decide)
    _ = W1 m ρ c (Proc.devRef .tc main_arg4) := (W2_arr m ρ c 1).trans (((Edge.dat (V1 m ρ) c).arrAt_in 1 rfl _).trans (Edge.dat_A (V1 m ρ) c 1))
    _ = W0 m ρ c (Proc.devRef .tc main_arg4) := W1_kept m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_kept m ρ c main_arg5 (by decide)
    _ = W1 m ρ c (Proc.devRef .tc main_arg5) := (W2_arr m ρ c 2).trans (((Edge.dat (V1 m ρ) c).arrAt_in 2 rfl _).trans (Edge.dat_A (V1 m ρ) c 2))
    _ = W0 m ρ c (Proc.devRef .tc main_arg5) := W1_kept m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_kept m ρ c main_arg6 (by decide)
    _ = W1 m ρ c (Proc.devRef .tc main_arg6) := (W2_arr m ρ c 3).trans (((Edge.dat (V1 m ρ) c).arrAt_in 3 rfl _).trans (Edge.dat_A (V1 m ρ) c 3))
    _ = W0 m ρ c (Proc.devRef .tc main_arg6) := W1_kept m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_kept m ρ c main_arg7 (by decide)
    _ = W1 m ρ c (Proc.devRef .tc main_arg7) := (W2_arr m ρ c 4).trans (((Edge.dat (V1 m ρ) c).arrAt_in 4 rfl _).trans (Edge.dat_A (V1 m ρ) c 4))
    _ = W0 m ρ c (Proc.devRef .tc main_arg7) := W1_kept m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_kept m ρ c main_arg8 (by decide)
    _ = W1 m ρ c (Proc.devRef .tc main_arg8) := (W2_arr m ρ c 5).trans (((Edge.dat (V1 m ρ) c).arrAt_in 5 rfl _).trans (Edge.dat_A (V1 m ρ) c 5))
    _ = W0 m ρ c (Proc.devRef .tc main_arg8) := W1_kept m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_kept m ρ c main_arg9 (by decide)
    _ = W1 m ρ c (Proc.devRef .tc main_arg9) := (W2_arr m ρ c 6).trans (((Edge.dat (V1 m ρ) c).arrAt_in 6 rfl _).trans (Edge.dat_A (V1 m ρ) c 6))
    _ = W0 m ρ c (Proc.devRef .tc main_arg9) := W1_kept m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 1).trans (((Node.dat (V3 m ρ) c).arrAt_in 1 rfl _).trans (Node.dat_A (V3 m ρ) c 1))
    _ = W2 m ρ c (Proc.devRef .tc main_arg10) := W3_kept m ρ c main_arg10 (by decide)
    _ = W1 m ρ c (Proc.devRef .tc main_arg10) := W2_of_ne m ρ c main_arg10 (by decide)
    _ = W0 m ρ c (Proc.devRef .tc main_arg10) := W1_kept m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 2).trans (((Node.dat (V3 m ρ) c).arrAt_in 2 rfl _).trans (Node.dat_A (V3 m ρ) c 2))
    _ = W2 m ρ c (Proc.devRef .tc main_arg11) := W3_kept m ρ c main_arg11 (by decide)
    _ = W1 m ρ c (Proc.devRef .tc main_arg11) := W2_of_ne m ρ c main_arg11 (by decide)
    _ = W0 m ρ c (Proc.devRef .tc main_arg11) := W1_kept m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := (W4_arr m ρ c 3).trans (((Node.dat (V3 m ρ) c).arrAt_in 3 rfl _).trans (Node.dat_A (V3 m ρ) c 3))
    _ = W2 m ρ c (Proc.devRef .tc main_arg12) := W3_kept m ρ c main_arg12 (by decide)
    _ = W1 m ρ c (Proc.devRef .tc main_arg12) := W2_of_ne m ρ c main_arg12 (by decide)
    _ = W0 m ρ c (Proc.devRef .tc main_arg12) := W1_kept m ρ c main_arg12 (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := (W4_arr m ρ c 4).trans (((Node.dat (V3 m ρ) c).arrAt_in 4 rfl _).trans (Node.dat_A (V3 m ρ) c 4))
    _ = W2 m ρ c (Proc.devRef .tc main_arg13) := W3_kept m ρ c main_arg13 (by decide)
    _ = W1 m ρ c (Proc.devRef .tc main_arg13) := W2_of_ne m ρ c main_arg13 (by decide)
    _ = W0 m ρ c (Proc.devRef .tc main_arg13) := W1_kept m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := (W4_arr m ρ c 5).trans (((Node.dat (V3 m ρ) c).arrAt_in 5 rfl _).trans (Node.dat_A (V3 m ρ) c 5))
    _ = W2 m ρ c (Proc.devRef .tc main_arg14) := W3_kept m ρ c main_arg14 (by decide)
    _ = W1 m ρ c (Proc.devRef .tc main_arg14) := W2_of_ne m ρ c main_arg14 (by decide)
    _ = W0 m ρ c (Proc.devRef .tc main_arg14) := W1_kept m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := (W4_arr m ρ c 6).trans (((Node.dat (V3 m ρ) c).arrAt_in 6 rfl _).trans (Node.dat_A (V3 m ρ) c 6))
    _ = W2 m ρ c (Proc.devRef .tc main_arg15) := W3_kept m ρ c main_arg15 (by decide)
    _ = W1 m ρ c (Proc.devRef .tc main_arg15) := W2_of_ne m ρ c main_arg15 (by decide)
    _ = W0 m ρ c (Proc.devRef .tc main_arg15) := W1_kept m ρ c main_arg15 (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := W3_kept m ρ c main_arg16 (by decide)
    _ = W1 m ρ c (Proc.devRef .tc main_arg16) := W2_of_ne m ρ c main_arg16 (by decide)
    _ = W0 m ρ c (Proc.devRef .tc main_arg16) := W1_kept m ρ c main_arg16 (by decide)
    _ = m ((c : Thread nD τ).loc main_arg16) := rfl
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := W3_kept m ρ c main_arg17 (by decide)
    _ = W1 m ρ c (Proc.devRef .tc main_arg17) := W2_of_ne m ρ c main_arg17 (by decide)
    _ = W0 m ρ c (Proc.devRef .tc main_arg17) := W1_kept m ρ c main_arg17 (by decide)
    _ = m ((c : Thread nD τ).loc main_arg17) := rfl
theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := W3_kept m ρ c main_arg18 (by decide)
    _ = W1 m ρ c (Proc.devRef .tc main_arg18) := W2_of_ne m ρ c main_arg18 (by decide)
    _ = W0 m ρ c (Proc.devRef .tc main_arg18) := W1_kept m ρ c main_arg18 (by decide)
    _ = m ((c : Thread nD τ).loc main_arg18) := rfl

/-! ## The proof data of both regions and what rides along -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => Edge.dat (V1 m ρ) c
  | ⟨1, _⟩ => fun c => Node.dat (V3 m ρ) c
abbrev 𝒱₀ : Variants := Variants.none
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The edge region over the thread state: its arrays split out of the unscoped buffers at entry and put back at
    the exit contents; the generator register into the region's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: its arrays split out of the unscoped buffers at entry and put back at
    the exit contents; the generator register into the region's invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch over the four segments -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

set_option maxHeartbeats 4000000 in
/-- The program is the run of its segments. -/
theorem main_run (c : Dev nD) : main (F := F) c = Pipeline.Seg.run (segs m ρ) := (main_chain c).trans (by chain_rfl)

set_option backward.isDefEq.respectTransparency.types false in
/-- From any memory with zero counters every weakly fair execution of the program on the TensorCores terminates, nothing
    faulting, and in every final state each unscoped buffer holds what the fold through the segments names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the run, read at the nineteen argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c)⟩)
    (run_all m ρ)

end Cert.Kernel.Whole

end
-- ==== Proof.KernelIdealEdgeBody.lean ====
/-
  The edge network's region, at whatever the TensorCore's buffers hold when the region is entered (a parameter `V`).

  The region runs one body per grid point on a 4096-row block of the 256-wide edge features through 256 → 256 → 128 → 1:
  it reads the point's block of rows and the three weight matrices and bias vectors whole, and stores into the output's
  block the rows' images under  x ↦ relu ((x·W₀ + b₀)·W₁ + b₁)·W₂ + b₂.  Here: what each window's staging buffer holds
  when the body starts (its block of the array as the region found it: the inputs are never written), the output block
  the body leaves as one store of that expression of the seven blocks read, and the body's run from those contents to
  those — what the launch of the region asks of its body.
-/
import proofs.«122221_j57234734186752_1_alg».proof.Proof.Gen.KernelIdeal.Launch
import proofs.«122221_j57234734186752_1_alg».proof.Proof.Gen.KernelIdeal.Skeleton
import proofs.«122221_j57234734186752_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched at that point or kept from an
    earlier one (the block index has then not moved), for any proof data over `V`'s arrays whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point, whether fetched at that point or kept from an
    earlier one (the block index has then not moved), for any proof data over `V`'s arrays whose body leaves the block in place. -/
theorem before1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point, whether fetched at that point or kept from an
    earlier one (the block index has then not moved), for any proof data over `V`'s arrays whose body leaves the block in place. -/
theorem before2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point, whether fetched at that point or kept from an
    earlier one (the block index has then not moved), for any proof data over `V`'s arrays whose body leaves the block in place. -/
theorem before3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds its block at every point, whether fetched at that point or kept from an
    earlier one (the block index has then not moved), for any proof data over `V`'s arrays whose body leaves the block in place. -/
theorem before4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's staging buffer holds its block at every point, whether fetched at that point or kept from an
    earlier one (the block index has then not moved), for any proof data over `V`'s arrays whose body leaves the block in place. -/
theorem before5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's staging buffer holds its block at every point, whether fetched at that point or kept from an
    earlier one (the block index has then not moved), for any proof data over `V`'s arrays whose body leaves the block in place. -/
theorem before6_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and the one store take a whole buffer -/

abbrev rect0 : Rect S4096x256 := Rect.unit (s := S4096x256) ![0, 0] S4096x256.size inb_S4096x256_S4096x256_0_0
abbrev rect1 : Rect S256x256 := Rect.unit (s := S256x256) ![0, 0] S256x256.size inb_S256x256_S256x256_0_0
abbrev rect2 : Rect S256 := Rect.unit (s := S256) ![0] S256.size inb_S256_S256_0
abbrev rect3 : Rect S256x128 := Rect.unit (s := S256x128) ![0, 0] S256x128.size inb_S256x128_S256x128_0_0
abbrev rect4 : Rect S128 := Rect.unit (s := S128) ![0] S128.size inb_S128_S128_0
abbrev rect5 : Rect S128x1 := Rect.unit (s := S128x1) ![0, 0] S128x1.size inb_S128x1_S128x1_0_0
abbrev rect6 : Rect S1 := Rect.unit (s := S1) ![0] S1.size inb_S1_S1_0
abbrev rect7 : Rect S4096x1 := Rect.unit (s := S4096x1) ![0, 0] S4096x1.size inb_S4096x1_S4096x1_0_0

/-- The output block after the body, from the seven blocks read: its one store, of the network's expression of them. -/
def outBlock (x0 : Vec F S4096x256 .bf16) (x1 : Vec F S256x256 .f32) (x2 : Vec F S256 .f32) (x3 : Vec F S256x128 .f32) (x4 : Vec F S128 .f32) (x5 : Vec F S128x1 .f32) (x6 : Vec F S1 .f32) : Vec F S4096x1 .f32 :=
  View.canon [⟨rect7, k0_pay1 (View.ld x0 rect0) (View.ld x1 rect1) (View.ld x2 rect2) (View.ld x3 rect3) (View.ld x4 rect4) (View.ld x5 rect5) (View.ld x6 rect6)⟩]

/-- The one store takes the whole block, so it covers it. -/
theorem cover (p0 : Vec F S4096x1 .f32) (y : S4096x1.Idx) :
    ∃ pc ∈ ([⟨rect7, p0⟩] : List (View.Piece (Elt F) S4096x1 .f32)), y ∈ pc.1.set :=
  View.cover_of_tiled [⟨rect7, p0⟩] S4096x1.size (by rfl) y

/-! ## The body's run -/

set_option maxHeartbeats 1000000 in
/-- The body on whole staging buffers, the inputs' at contents `x₀ … x₆` and the output's at anything, runs to the
    continuation with the inputs' as they were and the output's at `outBlock` of them. -/
theorem sound_kernel (c : Dev nD) (E : Set ℕ) (i : grid0.Coords) (arg1 : Memref sig .tc .vmem S4096x256 .bf16) (harg1 : arg1.IsWhole) (arg2 : Memref sig .tc .vmem S256x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S128x1 .f32) (harg6 : arg6.IsWhole) (arg7 : Memref sig .tc .vmem S1 .f32) (harg7 : arg7.IsWhole) (arg8 : Memref sig .tc .vmem S4096x1 .f32) (harg8 : arg8.IsWhole)
    (x0 : Vec F S4096x256 .bf16) (x1 : Vec F S256x256 .f32) (x2 : Vec F S256 .f32) (x3 : Vec F S256x128 .f32) (x4 : Vec F S128 .f32) (x5 : Vec F S128x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

/-! ## The region's proof data -/

/-- On core `c`: the arrays as the region finds them; after the body at point `t` each input's buffer at its block and
    the output's at `outBlock` of the input blocks; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => outBlock (blockAt V c 0 t) (blockAt V c 1 t) (blockAt V c 2 t) (blockAt V c 3 t) (blockAt V c 4 t) (blockAt V c 5 t) (blockAt V c 6 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) : (dat V c).after 3 t = blockAt V c 3 t := by dsimp only [dat]
theorem after4 (c : Dev nD) (t : Fin cfg0.N) : (dat V c).after 4 t = blockAt V c 4 t := by dsimp only [dat]
theorem after5 (c : Dev nD) (t : Fin cfg0.N) : (dat V c).after 5 t = blockAt V c 5 t := by dsimp only [dat]
theorem after6 (c : Dev nD) (t : Fin cfg0.N) : (dat V c).after 6 t = blockAt V c 6 t := by dsimp only [dat]
theorem after7 (c : Dev nD) (t : Fin cfg0.N) : (dat V c).after 7 t = outBlock (blockAt V c 0 t) (blockAt V c 1 t) (blockAt V c 2 t) (blockAt V c 3 t) (blockAt V c 4 t) (blockAt V c 5 t) (blockAt V c 6 t) := by dsimp only [dat]

theorem before0 (c : Dev nD) (t : Fin cfg0.N) (d) : (dat V c).before 0 t d = blockAt V c 0 t :=
  before0_of V (dat V c) (dat_A V c 0) (after0 V c) t d
theorem before1 (c : Dev nD) (t : Fin cfg0.N) (d) : (dat V c).before 1 t d = blockAt V c 1 t :=
  before1_of V (dat V c) (dat_A V c 1) (after1 V c) t d
theorem before2 (c : Dev nD) (t : Fin cfg0.N) (d) : (dat V c).before 2 t d = blockAt V c 2 t :=
  before2_of V (dat V c) (dat_A V c 2) (after2 V c) t d
theorem before3 (c : Dev nD) (t : Fin cfg0.N) (d) : (dat V c).before 3 t d = blockAt V c 3 t :=
  before3_of V (dat V c) (dat_A V c 3) (after3 V c) t d
theorem before4 (c : Dev nD) (t : Fin cfg0.N) (d) : (dat V c).before 4 t d = blockAt V c 4 t :=
  before4_of V (dat V c) (dat_A V c 4) (after4 V c) t d
theorem before5 (c : Dev nD) (t : Fin cfg0.N) (d) : (dat V c).before 5 t d = blockAt V c 5 t :=
  before5_of V (dat V c) (dat_A V c 5) (after5 V c) t d
theorem before6 (c : Dev nD) (t : Fin cfg0.N) (d) : (dat V c).before 6 t d = blockAt V c 6 t :=
  before6_of V (dat V c) (dat_A V c 6) (after6 V c) t d

/-! ## What the launch asks of the body, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W0, bigSep_W0]
  exact sound_body V c t

end Cert.KernelIdeal.Edge

end
-- ==== Proof.KernelIdealNodeBody.lean ====
/-
  The node network's region, at whatever the TensorCore's buffers hold when the region is entered (a parameter `V`).

  The region runs one body per grid point on a 1600-row block of the 160-wide node features through 160 → 128 → 64 → 4:
  it reads the point's block of rows and the three weight matrices and bias vectors whole, and stores into the output's
  block the rows' images under  x ↦ relu ((x·W₀ + b₀)·W₁ + b₁)·W₂ + b₂.  Here: what each window's staging buffer holds
  when the body starts (its block of the array as the region found it: the inputs are never written), the output block
  the body leaves as one store of that expression of the seven blocks read, and the body's run from those contents to
  those — what the launch of the region asks of its body.
-/
import proofs.«122221_j57234734186752_1_alg».proof.Proof.Gen.KernelIdeal.Launch
import proofs.«122221_j57234734186752_1_alg».proof.Proof.Gen.KernelIdeal.Skeleton
import proofs.«122221_j57234734186752_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched at that point or kept from an
    earlier one (the block index has then not moved), for any proof data over `V`'s arrays whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point, whether fetched at that point or kept from an
    earlier one (the block index has then not moved), for any proof data over `V`'s arrays whose body leaves the block in place. -/
theorem before1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point, whether fetched at that point or kept from an
    earlier one (the block index has then not moved), for any proof data over `V`'s arrays whose body leaves the block in place. -/
theorem before2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point, whether fetched at that point or kept from an
    earlier one (the block index has then not moved), for any proof data over `V`'s arrays whose body leaves the block in place. -/
theorem before3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds its block at every point, whether fetched at that point or kept from an
    earlier one (the block index has then not moved), for any proof data over `V`'s arrays whose body leaves the block in place. -/
theorem before4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's staging buffer holds its block at every point, whether fetched at that point or kept from an
    earlier one (the block index has then not moved), for any proof data over `V`'s arrays whose body leaves the block in place. -/
theorem before5_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's staging buffer holds its block at every point, whether fetched at that point or kept from an
    earlier one (the block index has then not moved), for any proof data over `V`'s arrays whose body leaves the block in place. -/
theorem before6_of {c : Dev nD} (dat : Dat τ (Elt F) Unit ℕ (UR sig nD τ) ℕ cfg1 c) (hA : dat.A 6 = V c (Pipeline.arrRef spec1 6))
    (hafter : ∀ t, dat.after 6 t = blockAt V c 6 t) (t : Fin cfg1.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and the one store take a whole buffer -/

abbrev rect0 : Rect S1600x160 := Rect.unit (s := S1600x160) ![0, 0] S1600x160.size inb_S1600x160_S1600x160_0_0
abbrev rect1 : Rect S160x128 := Rect.unit (s := S160x128) ![0, 0] S160x128.size inb_S160x128_S160x128_0_0
abbrev rect2 : Rect S128 := Rect.unit (s := S128) ![0] S128.size inb_S128_S128_0
abbrev rect3 : Rect S128x64 := Rect.unit (s := S128x64) ![0, 0] S128x64.size inb_S128x64_S128x64_0_0
abbrev rect4 : Rect S64 := Rect.unit (s := S64) ![0] S64.size inb_S64_S64_0
abbrev rect5 : Rect S64x4 := Rect.unit (s := S64x4) ![0, 0] S64x4.size inb_S64x4_S64x4_0_0
abbrev rect6 : Rect S4 := Rect.unit (s := S4) ![0] S4.size inb_S4_S4_0
abbrev rect7 : Rect S1600x4 := Rect.unit (s := S1600x4) ![0, 0] S1600x4.size inb_S1600x4_S1600x4_0_0

/-- The output block after the body, from the seven blocks read: its one store, of the network's expression of them. -/
def outBlock (x0 : Vec F S1600x160 .bf16) (x1 : Vec F S160x128 .f32) (x2 : Vec F S128 .f32) (x3 : Vec F S128x64 .f32) (x4 : Vec F S64 .f32) (x5 : Vec F S64x4 .f32) (x6 : Vec F S4 .f32) : Vec F S1600x4 .f32 :=
  View.canon [⟨rect7, k1_pay1 (View.ld x0 rect0) (View.ld x1 rect1) (View.ld x2 rect2) (View.ld x3 rect3) (View.ld x4 rect4) (View.ld x5 rect5) (View.ld x6 rect6)⟩]

/-- The one store takes the whole block, so it covers it. -/
theorem cover (p0 : Vec F S1600x4 .f32) (y : S1600x4.Idx) :
    ∃ pc ∈ ([⟨rect7, p0⟩] : List (View.Piece (Elt F) S1600x4 .f32)), y ∈ pc.1.set :=
  View.cover_of_tiled [⟨rect7, p0⟩] S1600x4.size (by rfl) y

/-! ## The body's run -/

set_option maxHeartbeats 1000000 in
/-- The body on whole staging buffers, the inputs' at contents `x₀ … x₆` and the output's at anything, runs to the
    continuation with the inputs' as they were and the output's at `outBlock` of them. -/
theorem sound_kernel (c : Dev nD) (E : Set ℕ) (i : grid1.Coords) (arg1 : Memref sig .tc .vmem S1600x160 .bf16) (harg1 : arg1.IsWhole) (arg2 : Memref sig .tc .vmem S160x128 .f32) (harg2 : arg2.IsWhole) (arg3 : Memref sig .tc .vmem S128 .f32) (harg3 : arg3.IsWhole) (arg4 : Memref sig .tc .vmem S128x64 .f32) (harg4 : arg4.IsWhole) (arg5 : Memref sig .tc .vmem S64 .f32) (harg5 : arg5.IsWhole) (arg6 : Memref sig .tc .vmem S64x4 .f32) (harg6 : arg6.IsWhole) (arg7 : Memref sig .tc .vmem S4 .f32) (harg7 : arg7.IsWhole) (arg8 : Memref sig .tc .vmem S1600x4 .f32) (harg8 : arg8.IsWhole)
    (x0 : Vec F S1600x160 .bf16) (x1 : Vec F S160x128 .f32) (x2 : Vec F S128 .f32) (x3 : Vec F S128x64 .f32) (x4 : Vec F S64 .f32) (x5 : Vec F S64x4 .f32) (x6 : Vec F S4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

/-! ## The region's proof data -/

/-- On core `c`: the arrays as the region finds them; after the body at point `t` each input's buffer at its block and
    the output's at `outBlock` of the input blocks; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => outBlock (blockAt V c 0 t) (blockAt V c 1 t) (blockAt V c 2 t) (blockAt V c 3 t) (blockAt V c 4 t) (blockAt V c 5 t) (blockAt V c 6 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = blockAt V c 5 t := by dsimp only [dat]
theorem after6 (c : Dev nD) (t : Fin cfg1.N) : (dat V c).after 6 t = blockAt V c 6 t := by dsimp only [dat]
theorem after7 (c : Dev nD) (t : Fin cfg1.N) : (dat V c).after 7 t = outBlock (blockAt V c 0 t) (blockAt V c 1 t) (blockAt V c 2 t) (blockAt V c 3 t) (blockAt V c 4 t) (blockAt V c 5 t) (blockAt V c 6 t) := by dsimp only [dat]

theorem before0 (c : Dev nD) (t : Fin cfg1.N) (d) : (dat V c).before 0 t d = blockAt V c 0 t :=
  before0_of V (dat V c) (dat_A V c 0) (after0 V c) t d
theorem before1 (c : Dev nD) (t : Fin cfg1.N) (d) : (dat V c).before 1 t d = blockAt V c 1 t :=
  before1_of V (dat V c) (dat_A V c 1) (after1 V c) t d
theorem before2 (c : Dev nD) (t : Fin cfg1.N) (d) : (dat V c).before 2 t d = blockAt V c 2 t :=
  before2_of V (dat V c) (dat_A V c 2) (after2 V c) t d
theorem before3 (c : Dev nD) (t : Fin cfg1.N) (d) : (dat V c).before 3 t d = blockAt V c 3 t :=
  before3_of V (dat V c) (dat_A V c 3) (after3 V c) t d
theorem before4 (c : Dev nD) (t : Fin cfg1.N) (d) : (dat V c).before 4 t d = blockAt V c 4 t :=
  before4_of V (dat V c) (dat_A V c 4) (after4 V c) t d
theorem before5 (c : Dev nD) (t : Fin cfg1.N) (d) : (dat V c).before 5 t d = blockAt V c 5 t :=
  before5_of V (dat V c) (dat_A V c 5) (after5 V c) t d
theorem before6 (c : Dev nD) (t : Fin cfg1.N) (d) : (dat V c).before 6 t d = blockAt V c 6 t :=
  before6_of V (dat V c) (dat_A V c 6) (after6 V c) t d

/-! ## What the launch asks of the body, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid1.coords t) _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W1, bigSep_W1]
  exact sound_body V c t

end Cert.KernelIdeal.Node

end
-- ==== Proof.KernelIdealRun.lean ====
/-
  The program's run from launch to return, as four segments: the host operations that build the two feature arrays
  (the per-graph mean, the row gathers, the two concatenations), the edge network's region, the one host operation that
  drops the edge output's unit axis, and the node network's region.

  The TensorCore's buffer contents are followed through the segments as a fold from the launch memory: a stretch of host
  operations applies its operations in order; a region leaves its input arrays as it found them and its output array at
  what its grid points wrote back, every other buffer untouched. From the run: every unscoped buffer's final contents by
  name, the nineteen argument arrays unchanged (no host operation writes one and each region only reads them), and the
  two results as what the regions' write-backs leave.
-/
import proofs.«122221_j57234734186752_1_alg».proof.Proof.KernelIdealEdgeBody
import proofs.«122221_j57234734186752_1_alg».proof.Proof.KernelIdealNodeBody
import proofs.«122221_j57234734186752_1_alg».proof.Proof.LibWrittenRefs

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the host operations before the edge region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the edge region's exit: its arrays at what the region leaves, every other buffer as entered. -/
def W2 (c : Dev nD) : Valuation τ sig (Elt F) :=
  Pipeline.withArrays spec0 c (W1 m ρ c) fun w => (Edge.dat (V1 m ρ) c).arrAt w cfg0.N
theorem W2_arr (c : Dev nD) (w : Fin cfg0.W) :
    W2 m ρ c (Proc.devRef .tc (Pipeline.arrRef spec0 w)) = (Edge.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (Edge.dat (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape between the regions. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the node region's exit. -/
def W4 (c : Dev nD) : Valuation τ sig (Elt F) :=
  Pipeline.withArrays spec1 c (W3 m ρ c) fun w => (Node.dat (V3 m ρ) c).arrAt w cfg1.N
theorem W4_arr (c : Dev nD) (w : Fin cfg1.W) :
    W4 m ρ c (Proc.devRef .tc (Pipeline.arrRef spec1 w)) = (Node.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exit1_arr (c : Dev nD) (w : Fin cfg1.W) : (Node.dat (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Which buffers the host operations write -/

/-- The buffers the host operations before the edge region write, in order: one each. -/
def written0 : List (Ref sig .tc) :=
  [main_cst, main_v0, main_v1, main_v2, main_cst_0, main_v3, main_cst_1, main_v4, main_v5, main_v6, main_v7, main_v8, main_c, main_v9, main_v10, main_c_2, main_v11, main_v12, main_v13, main_v14, main_v15, main_v16, main_v17, main_v18, main_v19, main_v20, main_c_3, main_v21, main_v22, main_c_4, main_v23, main_v24, main_v25, main_v26, main_v27, main_c_5, main_v28, main_v29, main_c_6, main_v30, main_v31, main_v32, main_v33, main_v34, main_c_7, main_v35, main_v36, main_c_8, main_v37, main_v38, main_v39, main_v40, main_v41, main_c_9, main_v42, main_v43, main_c_10, main_v44, main_v45, main_v46, main_v47, main_v48, main_c_11, main_v49, main_v50, main_c_12, main_v51, main_v52, main_v53, main_v54, main_v55, main_c_13, main_v56, main_v57, main_c_14, main_v58, main_v59, main_v60, main_v61, main_v62, main_c_15, main_v63, main_v64, main_c_16, main_v65, main_v66, main_v67, main_v68, main_v69, main_c_17, main_v70, main_v71, main_c_18, main_v72, main_v73, main_v74, main_v75, main_v76, main_c_19, main_v77, main_v78, main_c_20, main_v79, main_v80, main_v81, main_v82, main_v83, main_v84, main_v85]

set_option maxHeartbeats 4000000 in
theorem written0_eq : (hostOps0 (F := F)).map (fun op => op.writes)
    = written0.map (fun r => ({Proc.devRef (τ := τ) .tc r} : Finset (DevRef τ sig))) := by
  simp only [hostOps0, written0, List.map_cons, List.map_nil, StableHlo.nullary_writes, StableHlo.unary_writes,
    StableHlo.binary_writes, StableHlo.ternary_writes, StableHlo.nary_writes]

theorem written1_eq : (hostOps1 (F := F)).map (fun op => op.writes)
    = [main_v87].map (fun r => ({Proc.devRef (τ := τ) .tc r} : Finset (DevRef τ sig))) := by
  simp only [hostOps1, List.map_cons, List.map_nil, StableHlo.reshape_writes]

/-- A buffer the first stretch does not write enters the edge region as launched. -/
theorem W1_kept (c : Dev nD) (r : Ref sig .tc) (hr : r ∉ written0) :
    W1 m ρ c (Proc.devRef .tc r) = W0 m ρ c (Proc.devRef .tc r) :=
  StableHlo.after_of_map_writes_eq (written0_eq (F := F)) (W0 m ρ c) hr

/-- A buffer other than the reshaped edge output enters the node region as it left the edge region. -/
theorem W3_kept (c : Dev nD) (r : Ref sig .tc) (hr : r ∉ [main_v87]) :
    W3 m ρ c (Proc.devRef .tc r) = W2 m ρ c (Proc.devRef .tc r) :=
  StableHlo.after_of_map_writes_eq (written1_eq (F := F)) (W2 m ρ c) hr

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_kept m ρ c main_arg0 (by decide)
    _ = W1 m ρ c (Proc.devRef .tc main_arg0) := W2_of_ne m ρ c main_arg0 (by decide)
    _ = W0 m ρ c (Proc.devRef .tc main_arg0) := W1_kept m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_kept m ρ c main_arg1 (by decide)
    _ = W1 m ρ c (Proc.devRef .tc main_arg1) := W2_of_ne m ρ c main_arg1 (by decide)
    _ = W0 m ρ c (Proc.devRef .tc main_arg1) := W1_kept m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_kept m ρ c main_arg2 (by decide)
    _ = W1 m ρ c (Proc.devRef .tc main_arg2) := W2_of_ne m ρ c main_arg2 (by decide)
    _ = W0 m ρ c (Proc.devRef .tc main_arg2) := W1_kept m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_kept m ρ c main_arg3 (by decide)
    _ = W1 m ρ c (Proc.devRef .tc main_arg3) := W2_of_ne m ρ c main_arg3 (by decide)
    _ = W0 m ρ c (Proc.devRef .tc main_arg3) := W1_kept m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_kept m ρ c main_arg4 (by decide)
    _ = W1 m ρ c (Proc.devRef .tc main_arg4) := (W2_arr m ρ c 1).trans (((Edge.dat (V1 m ρ) c).arrAt_in 1 rfl _).trans (Edge.dat_A (V1 m ρ) c 1))
    _ = W0 m ρ c (Proc.devRef .tc main_arg4) := W1_kept m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_kept m ρ c main_arg5 (by decide)
    _ = W1 m ρ c (Proc.devRef .tc main_arg5) := (W2_arr m ρ c 2).trans (((Edge.dat (V1 m ρ) c).arrAt_in 2 rfl _).trans (Edge.dat_A (V1 m ρ) c 2))
    _ = W0 m ρ c (Proc.devRef .tc main_arg5) := W1_kept m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_kept m ρ c main_arg6 (by decide)
    _ = W1 m ρ c (Proc.devRef .tc main_arg6) := (W2_arr m ρ c 3).trans (((Edge.dat (V1 m ρ) c).arrAt_in 3 rfl _).trans (Edge.dat_A (V1 m ρ) c 3))
    _ = W0 m ρ c (Proc.devRef .tc main_arg6) := W1_kept m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_kept m ρ c main_arg7 (by decide)
    _ = W1 m ρ c (Proc.devRef .tc main_arg7) := (W2_arr m ρ c 4).trans (((Edge.dat (V1 m ρ) c).arrAt_in 4 rfl _).trans (Edge.dat_A (V1 m ρ) c 4))
    _ = W0 m ρ c (Proc.devRef .tc main_arg7) := W1_kept m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_kept m ρ c main_arg8 (by decide)
    _ = W1 m ρ c (Proc.devRef .tc main_arg8) := (W2_arr m ρ c 5).trans (((Edge.dat (V1 m ρ) c).arrAt_in 5 rfl _).trans (Edge.dat_A (V1 m ρ) c 5))
    _ = W0 m ρ c (Proc.devRef .tc main_arg8) := W1_kept m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_kept m ρ c main_arg9 (by decide)
    _ = W1 m ρ c (Proc.devRef .tc main_arg9) := (W2_arr m ρ c 6).trans (((Edge.dat (V1 m ρ) c).arrAt_in 6 rfl _).trans (Edge.dat_A (V1 m ρ) c 6))
    _ = W0 m ρ c (Proc.devRef .tc main_arg9) := W1_kept m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 1).trans (((Node.dat (V3 m ρ) c).arrAt_in 1 rfl _).trans (Node.dat_A (V3 m ρ) c 1))
    _ = W2 m ρ c (Proc.devRef .tc main_arg10) := W3_kept m ρ c main_arg10 (by decide)
    _ = W1 m ρ c (Proc.devRef .tc main_arg10) := W2_of_ne m ρ c main_arg10 (by decide)
    _ = W0 m ρ c (Proc.devRef .tc main_arg10) := W1_kept m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 2).trans (((Node.dat (V3 m ρ) c).arrAt_in 2 rfl _).trans (Node.dat_A (V3 m ρ) c 2))
    _ = W2 m ρ c (Proc.devRef .tc main_arg11) := W3_kept m ρ c main_arg11 (by decide)
    _ = W1 m ρ c (Proc.devRef .tc main_arg11) := W2_of_ne m ρ c main_arg11 (by decide)
    _ = W0 m ρ c (Proc.devRef .tc main_arg11) := W1_kept m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := (W4_arr m ρ c 3).trans (((Node.dat (V3 m ρ) c).arrAt_in 3 rfl _).trans (Node.dat_A (V3 m ρ) c 3))
    _ = W2 m ρ c (Proc.devRef .tc main_arg12) := W3_kept m ρ c main_arg12 (by decide)
    _ = W1 m ρ c (Proc.devRef .tc main_arg12) := W2_of_ne m ρ c main_arg12 (by decide)
    _ = W0 m ρ c (Proc.devRef .tc main_arg12) := W1_kept m ρ c main_arg12 (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := (W4_arr m ρ c 4).trans (((Node.dat (V3 m ρ) c).arrAt_in 4 rfl _).trans (Node.dat_A (V3 m ρ) c 4))
    _ = W2 m ρ c (Proc.devRef .tc main_arg13) := W3_kept m ρ c main_arg13 (by decide)
    _ = W1 m ρ c (Proc.devRef .tc main_arg13) := W2_of_ne m ρ c main_arg13 (by decide)
    _ = W0 m ρ c (Proc.devRef .tc main_arg13) := W1_kept m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := (W4_arr m ρ c 5).trans (((Node.dat (V3 m ρ) c).arrAt_in 5 rfl _).trans (Node.dat_A (V3 m ρ) c 5))
    _ = W2 m ρ c (Proc.devRef .tc main_arg14) := W3_kept m ρ c main_arg14 (by decide)
    _ = W1 m ρ c (Proc.devRef .tc main_arg14) := W2_of_ne m ρ c main_arg14 (by decide)
    _ = W0 m ρ c (Proc.devRef .tc main_arg14) := W1_kept m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := (W4_arr m ρ c 6).trans (((Node.dat (V3 m ρ) c).arrAt_in 6 rfl _).trans (Node.dat_A (V3 m ρ) c 6))
    _ = W2 m ρ c (Proc.devRef .tc main_arg15) := W3_kept m ρ c main_arg15 (by decide)
    _ = W1 m ρ c (Proc.devRef .tc main_arg15) := W2_of_ne m ρ c main_arg15 (by decide)
    _ = W0 m ρ c (Proc.devRef .tc main_arg15) := W1_kept m ρ c main_arg15 (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := W3_kept m ρ c main_arg16 (by decide)
    _ = W1 m ρ c (Proc.devRef .tc main_arg16) := W2_of_ne m ρ c main_arg16 (by decide)
    _ = W0 m ρ c (Proc.devRef .tc main_arg16) := W1_kept m ρ c main_arg16 (by decide)
    _ = m ((c : Thread nD τ).loc main_arg16) := rfl
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := W3_kept m ρ c main_arg17 (by decide)
    _ = W1 m ρ c (Proc.devRef .tc main_arg17) := W2_of_ne m ρ c main_arg17 (by decide)
    _ = W0 m ρ c (Proc.devRef .tc main_arg17) := W1_kept m ρ c main_arg17 (by decide)
    _ = m ((c : Thread nD τ).loc main_arg17) := rfl
theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := W3_kept m ρ c main_arg18 (by decide)
    _ = W1 m ρ c (Proc.devRef .tc main_arg18) := W2_of_ne m ρ c main_arg18 (by decide)
    _ = W0 m ρ c (Proc.devRef .tc main_arg18) := W1_kept m ρ c main_arg18 (by decide)
    _ = m ((c : Thread nD τ).loc main_arg18) := rfl

/-! ## The proof data of both regions and what rides along -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => Edge.dat (V1 m ρ) c
  | ⟨1, _⟩ => fun c => Node.dat (V3 m ρ) c
abbrev 𝒱₀ : Variants := Variants.none
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The edge region over the thread state: its arrays split out of the unscoped buffers at entry and put back at
    the exit contents; the generator register into the region's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: its arrays split out of the unscoped buffers at entry and put back at
    the exit contents; the generator register into the region's invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch over the four segments -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

set_option maxHeartbeats 4000000 in
/-- The program is the run of its segments. -/
theorem main_run (c : Dev nD) : main (F := F) c = Pipeline.Seg.run (segs m ρ) := (main_chain c).trans (by chain_rfl)

set_option backward.isDefEq.respectTransparency.types false in
/-- From any memory with zero counters every weakly fair execution of the program on the TensorCores terminates, nothing
    faulting, and in every final state each unscoped buffer holds what the fold through the segments names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the run, read at the nineteen argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c)⟩)
    (run_all m ρ)

end Cert.KernelIdeal.Whole

end
-- ==== Proof.LibNaryLiteral.lean ====
/-
  A host operation over a literal family of five, or of nine, references — a concatenation of that many arrays — read
  with each operand at its own buffer: the operands' contents `fun k => F (xs k)` under the binder are, at a literal
  family `xs`, the tuple of the contents at each reference, so that the contents of every operand can be rewritten on
  (the companions of the library's four-reference form).
-/
import Idealize.ShloMosaic.Lib.StableHlo.Run

namespace Idealize.ShloMosaic.StableHlo

variable {τ : Topo} {sig : RefSig} {Val : EltTy → Type}

/-- A host operation over a literal family of 5 references: its result with each operand read at its own buffer. -/
theorem nary5_result {x0 x1 x2 x3 x4 y : Ref sig .tc}
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F ((Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (fun i => i.elim0)))))) := by
  rw [nary_result]; congr 1; funext k; fin_cases k <;> rfl

/-- The same, with the result reference left out of the rewriting index. -/
theorem nary5_result' {x0 x1 x2 x3 x4 y : Ref sig .tc}
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (fun i => i.elim0)))))) :=
  nary5_result f hxs hy F

/-- A host operation over a literal family of 9 references: its result with each operand read at its own buffer. -/
theorem nary9_result {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F ((Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl

/-- The same, with the result reference left out of the rewriting index. -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

end Idealize.ShloMosaic.StableHlo
-- ==== Proof.KernelIdealHost.lean ====
/-
  What the two feature arrays hold when the regions are entered, as functions of the argument arrays.

  The host operations before the edge region build, out of the four float arguments rounded to bf16 and the three index
  arguments: the node features (five arrays side by side, the third the per-graph mean of the hidden vectors gathered
  back per node) and the edge features (nine row gathers by source or destination node, side by side). Reading the fold
  of those operations at the two result buffers gives the operations' composed terms; the weights and biases enter both
  regions as launched.
-/
import proofs.«122221_j57234734186752_1_alg».proof.Proof.KernelIdealRun
import proofs.«122221_j57234734186752_1_alg».proof.Proof.LibNaryLiteral

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The node features as the host operations compose them. -/
def nodeFeatures (a0 : (⟨S12800x16, .f32⟩ : BufTy).Contents (Elt F)) (a1 : (⟨S12800x64, .f32⟩ : BufTy).Contents (Elt F)) (a2 : (⟨S12800x8, .f32⟩ : BufTy).Contents (Elt F)) (a3 : (⟨S12800x8, .f32⟩ : BufTy).Contents (Elt F))
    (a18 : (⟨S12800, .i32⟩ : BufTy).Contents (Elt F)) : (⟨S12800x160, .bf16⟩ : BufTy).Contents (Elt F) :=
  (concatenate S12800x160 1 [⟨S12800x16, (truncf .bf16 a0 bitsLt_bf16_f32)⟩, ⟨S12800x64, (truncf .bf16 a1 bitsLt_bf16_f32)⟩, ⟨S12800x64, (truncf .bf16 (Host.gather gather_S512x64_S12800x1_S12800x64_1_0_n_n_0_1_164 (Host.divf (Host.scatterAdd scatter_S512x64_S12800x1_S12800x64_1_0_0_1 (broadcastInDim S512x64 ![] bcast_S_S512x64 (constant S_ .f32 0x00000000#32)) (broadcastInDim S12800x1 ![0] bcast_S12800_S12800x1_0 a18) a1) (broadcastInDim S512x64 ![0, 1] bcast_S512x1_S512x64_0_1 (Host.scatterAdd scatter_S512x1_S12800x1_S12800x1_1_0_0_1 (broadcastInDim S512x1 ![] bcast_S_S512x1 (constant S_ .f32 0x00000000#32)) (broadcastInDim S12800x1 ![0] bcast_S12800_S12800x1_0 a18) (broadcastInDim S12800x1 ![] bcast_S_S12800x1 (constant S_ .f32 0x3F800000#32))))) (broadcastInDim S12800x1 ![0] bcast_S12800_S12800x1_0 (select (cmpi .slt a18 (broadcastInDim S12800 ![] bcast_S_S12800 (constantI S_ 32 0#32))) (addi a18 (broadcastInDim S12800 ![] bcast_S_S12800 (constantI S_ 32 512#32))) a18))) bitsLt_bf16_f32)⟩, ⟨S12800x8, (truncf .bf16 a3 bitsLt_bf16_f32)⟩, ⟨S12800x8, (truncf .bf16 a2 bitsLt_bf16_f32)⟩] concatenates_S12800x16_S12800x64_S12800x64_S12800x8_S12800x8_S12800x160_d1)

set_option maxRecDepth 8192 in
/-- The edge features as the host operations compose them. -/
def edgeFeatures (a0 : (⟨S12800x16, .f32⟩ : BufTy).Contents (Elt F)) (a1 : (⟨S12800x64, .f32⟩ : BufTy).Contents (Elt F)) (a2 : (⟨S12800x8, .f32⟩ : BufTy).Contents (Elt F)) (a3 : (⟨S12800x8, .f32⟩ : BufTy).Contents (Elt F))
    (a16 a17 : (⟨S307200, .i32⟩ : BufTy).Contents (Elt F)) (a18 : (⟨S12800, .i32⟩ : BufTy).Contents (Elt F)) : (⟨S307200x256, .bf16⟩ : BufTy).Contents (Elt F) :=
  (concatenate S307200x256 1 [⟨S307200x16, (Host.gather gather_S12800x16_S307200x1_S307200x16_1_0_n_n_0_1_116 (truncf .bf16 a0 bitsLt_bf16_f32) (broadcastInDim S307200x1 ![0] bcast_S307200_S307200x1_0 (select (cmpi .slt a16 (broadcastInDim S307200 ![] bcast_S_S307200 (constantI S_ 32 0#32))) (addi a16 (broadcastInDim S307200 ![] bcast_S_S307200 (constantI S_ 32 12800#32))) a16)))⟩, ⟨S307200x64, (Host.gather gather_S12800x64_S307200x1_S307200x64_1_0_n_n_0_1_164 (truncf .bf16 a1 bitsLt_bf16_f32) (broadcastInDim S307200x1 ![0] bcast_S307200_S307200x1_0 (select (cmpi .slt a16 (broadcastInDim S307200 ![] bcast_S_S307200 (constantI S_ 32 0#32))) (addi a16 (broadcastInDim S307200 ![] bcast_S_S307200 (constantI S_ 32 12800#32))) a16)))⟩, ⟨S307200x8, (Host.gather gather_S12800x8_S307200x1_S307200x8_1_0_n_n_0_1_18 (truncf .bf16 a2 bitsLt_bf16_f32) (broadcastInDim S307200x1 ![0] bcast_S307200_S307200x1_0 (select (cmpi .slt a16 (broadcastInDim S307200 ![] bcast_S_S307200 (constantI S_ 32 0#32))) (addi a16 (broadcastInDim S307200 ![] bcast_S_S307200 (constantI S_ 32 12800#32))) a16)))⟩, ⟨S307200x8, (Host.gather gather_S12800x8_S307200x1_S307200x8_1_0_n_n_0_1_18 (truncf .bf16 a2 bitsLt_bf16_f32) (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩, ⟨S307200x16, (Host.gather gather_S12800x16_S307200x1_S307200x16_1_0_n_n_0_1_116 (truncf .bf16 a0 bitsLt_bf16_f32) (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩, ⟨S307200x64, (Host.gather gather_S12800x64_S307200x1_S307200x64_1_0_n_n_0_1_164 (truncf .bf16 a1 bitsLt_bf16_f32) (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩, ⟨S307200x8, (Host.gather gather_S12800x8_S307200x1_S307200x8_1_0_n_n_0_1_18 (truncf .bf16 a3 bitsLt_bf16_f32) (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩, ⟨S307200x8, (Host.gather gather_S12800x8_S307200x1_S307200x8_1_0_n_n_0_1_18 (truncf .bf16 a3 bitsLt_bf16_f32) (broadcastInDim S307200x1 ![0] bcast_S307200_S307200x1_0 (select (cmpi .slt a16 (broadcastInDim S307200 ![] bcast_S_S307200 (constantI S_ 32 0#32))) (addi a16 (broadcastInDim S307200 ![] bcast_S_S307200 (constantI S_ 32 12800#32))) a16)))⟩, ⟨S307200x64, (Host.gather gather_S12800x64_S307200x1_S307200x64_1_0_n_n_0_1_164 (truncf .bf16 (Host.gather gather_S512x64_S12800x1_S12800x64_1_0_n_n_0_1_164 (Host.divf (Host.scatterAdd scatter_S512x64_S12800x1_S12800x64_1_0_0_1 (broadcastInDim S512x64 ![] bcast_S_S512x64 (constant S_ .f32 0x00000000#32)) (broadcastInDim S12800x1 ![0] bcast_S12800_S12800x1_0 a18) a1) (broadcastInDim S512x64 ![0, 1] bcast_S512x1_S512x64_0_1 (Host.scatterAdd scatter_S512x1_S12800x1_S12800x1_1_0_0_1 (broadcastInDim S512x1 ![] bcast_S_S512x1 (constant S_ .f32 0x00000000#32)) (broadcastInDim S12800x1 ![0] bcast_S12800_S12800x1_0 a18) (broadcastInDim S12800x1 ![] bcast_S_S12800x1 (constant S_ .f32 0x3F800000#32))))) (broadcastInDim S12800x1 ![0] bcast_S12800_S12800x1_0 (select (cmpi .slt a18 (broadcastInDim S12800 ![] bcast_S_S12800 (constantI S_ 32 0#32))) (addi a18 (broadcastInDim S12800 ![] bcast_S_S12800 (constantI S_ 32 512#32))) a18))) bitsLt_bf16_f32) (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩] concatenates_S307200x16_S307200x64_S307200x8_S307200x8_S307200x16_S307200x64_S307200x8_S307200x8_S307200x64_S307200x256_d1)

variable (m : (ℓ : Loc nD τ sig) → Buf (Elt F) ℓ) (ρ : Dev nD → PrngReg)

/-- Argument `r` as launched on core `c`. -/
abbrev arg (c : Dev nD) (r : Ref sig .tc) : Buf (Elt F) ((c : Thread nD τ).loc r) := m ((c : Thread nD τ).loc r)

set_option maxHeartbeats 4000000 in
/-- The node features enter the edge region at the host operations' term of the arguments. -/
theorem entry_nodeFeatures (c : Dev nD) : W1 m ρ c (Proc.devRef .tc main_v85)
    = nodeFeatures (arg m c main_arg0) (arg m c main_arg1) (arg m c main_arg2) (arg m c main_arg3) (arg m c main_arg18) := by
  show StableHlo.after hostOps0 (W0 m ρ c) (Proc.devRef .tc main_v85) = _
  dsimp only [hostOps0]
  simp (disch := decide) only [StableHlo.after_cons, StableHlo.after_nil,
    StableHlo.nullary_result', StableHlo.unary_result', StableHlo.binary_result', StableHlo.ternary_result',
    StableHlo.nary5_result', StableHlo.nary9_result',
    StableHlo.nullary_result_ne', StableHlo.unary_result_ne', StableHlo.binary_result_ne', StableHlo.ternary_result_ne',
    StableHlo.nary_result_ne']
  rfl

set_option maxHeartbeats 4000000 in
/-- The edge features enter the edge region at the host operations' term of the arguments. -/
theorem entry_edgeFeatures (c : Dev nD) : W1 m ρ c (Proc.devRef .tc main_v84)
    = edgeFeatures (arg m c main_arg0) (arg m c main_arg1) (arg m c main_arg2) (arg m c main_arg3) (arg m c main_arg16) (arg m c main_arg17) (arg m c main_arg18) := by
  show StableHlo.after hostOps0 (W0 m ρ c) (Proc.devRef .tc main_v84) = _
  dsimp only [hostOps0]
  simp (disch := decide) only [StableHlo.after_cons, StableHlo.after_nil,
    StableHlo.nullary_result', StableHlo.unary_result', StableHlo.binary_result', StableHlo.ternary_result',
    StableHlo.nary5_result', StableHlo.nary9_result',
    StableHlo.nullary_result_ne', StableHlo.unary_result_ne', StableHlo.binary_result_ne', StableHlo.ternary_result_ne',
    StableHlo.nary_result_ne']
  rfl

/-- An argument enters the edge region as launched. -/
theorem entry0_arg (c : Dev nD) (r : Ref sig .tc) (hr : r ∉ written0) : V1 m ρ c r = m ((c : Thread nD τ).loc r) :=
  W1_kept m ρ c r hr

/-- The node features enter the node region as they entered the edge region. -/
theorem entry1_nodeFeatures (c : Dev nD) : V3 m ρ c main_v85
    = nodeFeatures (arg m c main_arg0) (arg m c main_arg1) (arg m c main_arg2) (arg m c main_arg3) (arg m c main_arg18) :=
  ((W3_kept m ρ c main_v85 (by decide)).trans (W2_of_ne m ρ c main_v85 (by decide))).trans (entry_nodeFeatures m ρ c)

/-- An argument that is no array of the edge region enters the node region as launched. -/
theorem entry1_arg (c : Dev nD) (r : Ref sig .tc) (h87 : r ∉ [main_v87]) (hw : ∀ w, Pipeline.arrRef spec0 w ≠ r) (hr : r ∉ written0) :
    V3 m ρ c r = m ((c : Thread nD τ).loc r) :=
  ((W3_kept m ρ c r h87).trans (W2_of_ne m ρ c r hw)).trans (W1_kept m ρ c r hr)

end Cert.KernelIdeal.Whole

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«122221_j57234734186752_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«122221_j57234734186752_1_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.RefNets.lean ====
/-
  The reference program's two results as functions of the nineteen argument arrays, in named pieces.

  `meanRows`: for each node, the mean of the hidden vectors over the node's graph (a segment sum of the hidden rows and
  of ones by graph id, their quotient, and the quotient's row gathered back per node). `nodeIn` / `edgeIn`: the
  node features (five arrays side by side) and the edge features (nine row gathers by source or destination node, side
  by side). `nodeNet` / `edgeNet`: the three-layer network  x ↦ relu ((x·W₀ + b₀)·W₁ + b₁)·W₂ + b₂  on every row of a
  feature array. The reference's run ends with its first result at `nodeNet` of `nodeIn` and its second at `edgeNet` of
  `edgeIn` with the unit axis dropped; the pieces only name subterms of the run's own composed term.
-/
import proofs.«122221_j57234734186752_1_alg».proof.Proof.Gen.ReferenceIdeal.Run

noncomputable section

namespace Cert.ReferenceIdeal.Nets

open Cert.ReferenceIdeal Cert.ReferenceIdeal.Gen Idealize.ShloMosaic Idealize.ShloMosaic.TcCoe Idealize.SL.Sem

variable {F : FTy → Type} [FloatOps F]

/-- Per node, the mean hidden vector of the node's graph. -/
def meanRows (a1 : (⟨S12800x64, .f32⟩ : BufTy).Contents (Elt F)) (a18 : (⟨S12800, .i32⟩ : BufTy).Contents (Elt F)) : (⟨S12800x64, .f32⟩ : BufTy).Contents (Elt F) :=
  Host.gather gather_S512x64_S12800x1_S12800x64_1_0_n_n_0_1_164 (Host.divf (Host.scatterAdd scatter_S512x64_S12800x1_S12800x64_1_0_0_1 (broadcastInDim S512x64 ![] bcast_S_S512x64 (constant S_ .f32 0x00000000#32)) (broadcastInDim S12800x1 ![0] bcast_S12800_S12800x1_0 a18) a1) (broadcastInDim S512x64 ![0, 1] bcast_S512x1_S512x64_0_1 (Host.scatterAdd scatter_S512x1_S12800x1_S12800x1_1_0_0_1 (broadcastInDim S512x1 ![] bcast_S_S512x1 (constant S_ .f32 0x00000000#32)) (broadcastInDim S12800x1 ![0] bcast_S12800_S12800x1_0 a18) (broadcastInDim S12800x1 ![] bcast_S_S12800x1 (constant S_ .f32 0x3F800000#32))))) (broadcastInDim S12800x1 ![0] bcast_S12800_S12800x1_0 (select (cmpi .slt a18 (broadcastInDim S12800 ![] bcast_S_S12800 (constantI S_ 32 0#32))) (addi a18 (broadcastInDim S12800 ![] bcast_S_S12800 (constantI S_ 32 512#32))) a18))

/-- The node features: raw features, hidden vector, graph mean, type embedding, common variables, side by side. -/
def nodeIn (a0 : (⟨S12800x16, .f32⟩ : BufTy).Contents (Elt F)) (a1 : (⟨S12800x64, .f32⟩ : BufTy).Contents (Elt F)) (a2 : (⟨S12800x8, .f32⟩ : BufTy).Contents (Elt F)) (a3 : (⟨S12800x8, .f32⟩ : BufTy).Contents (Elt F))
    (a18 : (⟨S12800, .i32⟩ : BufTy).Contents (Elt F)) : (⟨S12800x160, .f32⟩ : BufTy).Contents (Elt F) :=
  concatenate S12800x160 1 [⟨S12800x16, a0⟩, ⟨S12800x64, a1⟩, ⟨S12800x64, (meanRows a1 a18)⟩, ⟨S12800x8, a3⟩, ⟨S12800x8, a2⟩] concatenates_S12800x16_S12800x64_S12800x64_S12800x8_S12800x8_S12800x160_d1

set_option maxRecDepth 8192 in
/-- The edge features: nine row gathers by source (`a16`) or destination (`a17`) node, side by side. -/
def edgeIn (a0 : (⟨S12800x16, .f32⟩ : BufTy).Contents (Elt F)) (a1 : (⟨S12800x64, .f32⟩ : BufTy).Contents (Elt F)) (a2 : (⟨S12800x8, .f32⟩ : BufTy).Contents (Elt F)) (a3 : (⟨S12800x8, .f32⟩ : BufTy).Contents (Elt F))
    (a16 a17 : (⟨S307200, .i32⟩ : BufTy).Contents (Elt F)) (a18 : (⟨S12800, .i32⟩ : BufTy).Contents (Elt F)) : (⟨S307200x256, .f32⟩ : BufTy).Contents (Elt F) :=
  concatenate S307200x256 1 [⟨S307200x16, (Host.gather gather_S12800x16_S307200x1_S307200x16_1_0_n_n_0_1_116 a0 (broadcastInDim S307200x1 ![0] bcast_S307200_S307200x1_0 (select (cmpi .slt a16 (broadcastInDim S307200 ![] bcast_S_S307200 (constantI S_ 32 0#32))) (addi a16 (broadcastInDim S307200 ![] bcast_S_S307200 (constantI S_ 32 12800#32))) a16)))⟩, ⟨S307200x64, (Host.gather gather_S12800x64_S307200x1_S307200x64_1_0_n_n_0_1_164 a1 (broadcastInDim S307200x1 ![0] bcast_S307200_S307200x1_0 (select (cmpi .slt a16 (broadcastInDim S307200 ![] bcast_S_S307200 (constantI S_ 32 0#32))) (addi a16 (broadcastInDim S307200 ![] bcast_S_S307200 (constantI S_ 32 12800#32))) a16)))⟩, ⟨S307200x8, (Host.gather gather_S12800x8_S307200x1_S307200x8_1_0_n_n_0_1_18 a2 (broadcastInDim S307200x1 ![0] bcast_S307200_S307200x1_0 (select (cmpi .slt a16 (broadcastInDim S307200 ![] bcast_S_S307200 (constantI S_ 32 0#32))) (addi a16 (broadcastInDim S307200 ![] bcast_S_S307200 (constantI S_ 32 12800#32))) a16)))⟩, ⟨S307200x8, (Host.gather gather_S12800x8_S307200x1_S307200x8_1_0_n_n_0_1_18 a2 (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩, ⟨S307200x16, (Host.gather gather_S12800x16_S307200x1_S307200x16_1_0_n_n_0_1_116 a0 (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩, ⟨S307200x64, (Host.gather gather_S12800x64_S307200x1_S307200x64_1_0_n_n_0_1_164 a1 (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩, ⟨S307200x8, (Host.gather gather_S12800x8_S307200x1_S307200x8_1_0_n_n_0_1_18 a3 (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩, ⟨S307200x8, (Host.gather gather_S12800x8_S307200x1_S307200x8_1_0_n_n_0_1_18 a3 (broadcastInDim S307200x1 ![0] bcast_S307200_S307200x1_0 (select (cmpi .slt a16 (broadcastInDim S307200 ![] bcast_S_S307200 (constantI S_ 32 0#32))) (addi a16 (broadcastInDim S307200 ![] bcast_S_S307200 (constantI S_ 32 12800#32))) a16)))⟩, ⟨S307200x64, (Host.gather gather_S12800x64_S307200x1_S307200x64_1_0_n_n_0_1_164 (meanRows a1 a18) (broadcastInDim S307200x1 ![0] bcast_S307200_S307200x1_0 (select (cmpi .slt a17 (broadcastInDim S307200 ![] bcast_S_S307200 (constantI S_ 32 0#32))) (addi a17 (broadcastInDim S307200 ![] bcast_S_S307200 (constantI S_ 32 12800#32))) a17)))⟩] concatenates_S307200x16_S307200x64_S307200x8_S307200x8_S307200x16_S307200x64_S307200x8_S307200x8_S307200x64_S307200x256_d1

/-- The node network on every row of a feature array. -/
def nodeNet (X : (⟨S12800x160, .f32⟩ : BufTy).Contents (Elt F)) (a10 : (⟨S160x128, .f32⟩ : BufTy).Contents (Elt F)) (a11 : (⟨S128, .f32⟩ : BufTy).Contents (Elt F)) (a12 : (⟨S128x64, .f32⟩ : BufTy).Contents (Elt F))
    (a13 : (⟨S64, .f32⟩ : BufTy).Contents (Elt F)) (a14 : (⟨S64x4, .f32⟩ : BufTy).Contents (Elt F)) (a15 : (⟨S4, .f32⟩ : BufTy).Contents (Elt F)) : (⟨S12800x4, .f32⟩ : BufTy).Contents (Elt F) :=
  addf (Host.dotGeneral dot_S12800x64_S64x4_S12800x4_1_0_0_1_n_n none (maximumf (addf (Host.dotGeneral dot_S12800x128_S128x64_S12800x64_1_0_0_1_n_n none (addf (Host.dotGeneral dot_S12800x160_S160x128_S12800x128_1_0_0_1_n_n none X a10) (broadcastInDim S12800x128 ![0, 1] bcast_S1x128_S12800x128_0_1 (broadcastInDim S1x128 ![1] bcast_S128_S1x128_1 a11))) a12) (broadcastInDim S12800x64 ![0, 1] bcast_S1x64_S12800x64_0_1 (broadcastInDim S1x64 ![1] bcast_S64_S1x64_1 a13))) (broadcastInDim S12800x64 ![] bcast_S_S12800x64 (constant S_ .f32 0x00000000#32))) a14) (broadcastInDim S12800x4 ![0, 1] bcast_S1x4_S12800x4_0_1 (broadcastInDim S1x4 ![1] bcast_S4_S1x4_1 a15))

/-- The edge network on every row of a feature array. -/
def edgeNet (X : (⟨S307200x256, .f32⟩ : BufTy).Contents (Elt F)) (a4 : (⟨S256x256, .f32⟩ : BufTy).Contents (Elt F)) (a5 : (⟨S256, .f32⟩ : BufTy).Contents (Elt F)) (a6 : (⟨S256x128, .f32⟩ : BufTy).Contents (Elt F))
    (a7 : (⟨S128, .f32⟩ : BufTy).Contents (Elt F)) (a8 : (⟨S128x1, .f32⟩ : BufTy).Contents (Elt F)) (a9 : (⟨S1, .f32⟩ : BufTy).Contents (Elt F)) : (⟨S307200x1, .f32⟩ : BufTy).Contents (Elt F) :=
  addf (Host.dotGeneral dot_S307200x128_S128x1_S307200x1_1_0_0_1_n_n none (maximumf (addf (Host.dotGeneral dot_S307200x256_S256x128_S307200x128_1_0_0_1_n_n none (addf (Host.dotGeneral dot_S307200x256_S256x256_S307200x256_1_0_0_1_n_n none X a4) (broadcastInDim S307200x256 ![0, 1] bcast_S1x256_S307200x256_0_1 (broadcastInDim S1x256 ![1] bcast_S256_S1x256_1 a5))) a6) (broadcastInDim S307200x128 ![0, 1] bcast_S1x128_S307200x128_0_1 (broadcastInDim S1x128 ![1] bcast_S128_S1x128_1 a7))) (broadcastInDim S307200x128 ![] bcast_S_S307200x128 (constant S_ .f32 0x00000000#32))) a8) (broadcastInDim S307200x1 ![0, 1] bcast_S1x1_S307200x1_0_1 (broadcastInDim S1x1 ![1] bcast_S1_S1x1_1 a9))

/-- The edge result: the edge network's one column as a vector. -/
def edgeOut (X : (⟨S307200x256, .f32⟩ : BufTy).Contents (Elt F)) (a4 : (⟨S256x256, .f32⟩ : BufTy).Contents (Elt F)) (a5 : (⟨S256, .f32⟩ : BufTy).Contents (Elt F)) (a6 : (⟨S256x128, .f32⟩ : BufTy).Contents (Elt F))
    (a7 : (⟨S128, .f32⟩ : BufTy).Contents (Elt F)) (a8 : (⟨S128x1, .f32⟩ : BufTy).Contents (Elt F)) (a9 : (⟨S1, .f32⟩ : BufTy).Contents (Elt F)) : (⟨S307200, .f32⟩ : BufTy).Contents (Elt F) :=
  shapeCast S307200 (edgeNet X a4 a5 a6 a7 a8 a9) shapeCasts_S307200x1_S307200

variable (m : (ℓ : Loc nD τ sig) → Buf (Elt F) ℓ) (ρ : Dev nD → PrngReg)

/-- Argument `k` as launched on core `c`. -/
abbrev arg (c : Dev nD) (r : Ref sig .tc) : Buf (Elt F) ((c.tc : Thread nD τ).loc r) := m ((c.tc : Thread nD τ).loc r)

/-- The reference's first result, named. -/
def nodeResult (c : Dev nD) : Buf (Elt F) ((c.tc : Thread nD τ).loc main_v107) :=
  nodeNet (nodeIn (arg m c main_arg0) (arg m c main_arg1) (arg m c main_arg2) (arg m c main_arg3) (arg m c main_arg18))
    (arg m c main_arg10) (arg m c main_arg11) (arg m c main_arg12) (arg m c main_arg13) (arg m c main_arg14) (arg m c main_arg15)

/-- The reference's second result, named. -/
def edgeResult (c : Dev nD) : Buf (Elt F) ((c.tc : Thread nD τ).loc main_v93) :=
  edgeOut (edgeIn (arg m c main_arg0) (arg m c main_arg1) (arg m c main_arg2) (arg m c main_arg3) (arg m c main_arg16) (arg m c main_arg17) (arg m c main_arg18))
    (arg m c main_arg4) (arg m c main_arg5) (arg m c main_arg6) (arg m c main_arg7) (arg m c main_arg8) (arg m c main_arg9)

set_option maxRecDepth 8192 in
theorem nodeResult_eq (c : Dev nD) : (addf (Host.dotGeneral dot_S12800x64_S64x4_S12800x4_1_0_0_1_n_n none (maximumf (addf (Host.dotGeneral dot_S12800x128_S128x64_S12800x64_1_0_0_1_n_n none (addf (Host.dotGeneral dot_S12800x160_S160x128_S12800x128_1_0_0_1_n_n none (concatenate S12800x160 1 [⟨S12800x16, (m ((c.tc : Thread nD τ).loc main_arg0))⟩, ⟨S12800x64, (m ((c.tc : Thread nD τ).loc main_arg1))⟩, ⟨S12800x64, (Host.gather gather_S512x64_S12800x1_S12800x64_1_0_n_n_0_1_164 (Host.divf (Host.scatterAdd scatter_S512x64_S12800x1_S12800x64_1_0_0_1 (broadcastInDim S512x64 ![] bcast_S_S512x64 (constant S_ .f32 0x00000000#32)) (broadcastInDim S12800x1 ![0] bcast_S12800_S12800x1_0 (m ((c.tc : Thread nD τ).loc main_arg18))) (m ((c.tc : Thread nD τ).loc main_arg1))) (broadcastInDim S512x64 ![0, 1] bcast_S512x1_S512x64_0_1 (Host.scatterAdd scatter_S512x1_S12800x1_S12800x1_1_0_0_1 (broadcastInDim S512x1 ![] bcast_S_S512x1 (constant S_ .f32 0x00000000#32)) (broadcastInDim S12800x1 ![0] bcast_S12800_S12800x1_0 (m ((c.tc : Thread nD τ).loc main_arg18))) (broadcastInDim S12800x1 ![] bcast_S_S12800x1 (constant S_ .f32 0x3F800000#32))))) (broadcastInDim S12800x1 ![0] bcast_S12800_S12800x1_0 (select (cmpi .slt (m ((c.tc : Thread nD τ).loc main_arg18)) (broadcastInDim S12800 ![] bcast_S_S12800 (constantI S_ 32 0#32))) (addi (m ((c.tc : Thread nD τ).loc main_arg18)) (broadcastInDim S12800 ![] bcast_S_S12800 (constantI S_ 32 512#32))) (m ((c.tc : Thread nD τ).loc main_arg18)))))⟩, ⟨S12800x8, (m ((c.tc : Thread nD τ).loc main_arg3))⟩, ⟨S12800x8, (m ((c.tc : Thread nD τ).loc main_arg2))⟩] concatenates_S12800x16_S12800x64_S12800x64_S12800x8_S12800x8_S12800x160_d1) (m ((c.tc : Thread nD τ).loc main_arg10))) (broadcastInDim S12800x128 ![0, 1] bcast_S1x128_S12800x128_0_1 (broadcastInDim S1x128 ![1] bcast_S128_S1x128_1 (m ((c.tc : Thread nD τ).loc main_arg11))))) (m ((c.tc : Thread nD τ).loc main_arg12))) (broadcastInDim S12800x64 ![0, 1] bcast_S1x64_S12800x64_0_1 (broadcastInDim S1x64 ![1] bcast_S64_S1x64_1 (m ((c.tc : Thread nD τ).loc main_arg13))))) (broadcastInDim S12800x64 ![] bcast_S_S12800x64 (constant S_ .f32 0x00000000#32))) (m ((c.tc : Thread nD τ).loc main_arg14))) (broadcastInDim S12800x4 ![0, 1] bcast_S1x4_S12800x4_0_1 (broadcastInDim S1x4 ![1] bcast_S4_S1x4_1 (m ((c.tc : Thread nD τ).loc main_arg15)))) : Buf (Elt F) ((c.tc : Thread nD τ).loc main_v107)) = nodeResult m c := by
  unfold nodeResult nodeNet nodeIn meanRows arg
  rfl

set_option maxRecDepth 8192 in
theorem edgeResult_eq (c : Dev nD) : Cert.ReferenceIdeal.Value.res_main_v93 (F := F) m c = edgeResult m c := by
  unfold Cert.ReferenceIdeal.Value.res_main_v93 edgeResult edgeOut edgeNet edgeIn meanRows arg
  rfl

set_option maxRecDepth 8192 in
/-- The reference's run with its two results named, the arguments unchanged. -/
theorem run : θ_run defs (onTc (τ := τ) (main (F := F))) ⟨m, fun _ => 0, ρ⟩ fun r => ∀ c : Dev nD,
      r.2.mem ((c.tc : Thread nD τ).loc main_v107) = nodeResult m c
      ∧ r.2.mem ((c.tc : Thread nD τ).loc main_v93) = edgeResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c).1.trans (nodeResult_eq m c), (h c).2.1.trans (edgeResult_eq m c), (h c).2.2⟩)
    (Cert.ReferenceIdeal.Value.run (F := F) m ρ)

end Cert.ReferenceIdeal.Nets

end
-- ==== Proof.KernelIdealNodeValue.lean ====
/-
  What the node region leaves in its output array, on the extended reals: the node network on every row of the
  feature array the region was entered with.

  Grid point `t` reads rows `1600·t … 1600·t + 1599` of the features and the weights and biases whole, and writes back the
  same rows of the output. Entry `(p, q)` of the block it stores is  relu ((x·W₀ + b₀)·W₁ + b₁)·W₂ + b₂  at row `p` of the
  block, which is row `1600·t + p` of the features: layer by layer the block's product on the vector unit is the
  host's product of the whole array at that row (the same sums term by term; the rounding to bf16 on the way into each
  product is the identity here), so the point writes block `t` of the whole-array network. The 8 blocks tile the rows.
-/
import proofs.«122221_j57234734186752_1_alg».proof.Proof.KernelIdealNodeBody
import proofs.«122221_j57234734186752_1_alg».proof.Proof.LibAffineRows
import proofs.«122221_j57234734186752_1_alg».proof.Proof.RefNets
import Idealize.ShloMosaic.Lib.Pipeline.Value

set_option maxRecDepth 16384

noncomputable section

namespace Cert.KernelIdeal.Node

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.ReferenceIdeal.Nets (nodeNet)
open Cert.Lib.AffineRows

/-! ## The body's expression at an entry -/

/-- Entry `(p, q)` of the stored block is the whole-array network at `(P, q)` when row `p` of the block read is row `P`
    of the features and the weights and biases read are the whole arrays. -/
theorem payload_apply (x0 : Vec Ideal S1600x160 .bf16) (x1 : Vec Ideal S160x128 .f32) (x2 : Vec Ideal S128 .f32) (x3 : Vec Ideal S128x64 .f32)
    (x4 : Vec Ideal S64 .f32) (x5 : Vec Ideal S64x4 .f32) (x6 : Vec Ideal S4 .f32)
    (X : (⟨2, ![12800, 160]⟩ : Shape).Idx → EReal) (W0 : (⟨2, ![160, 128]⟩ : Shape).Idx → EReal) (b0 : (⟨1, ![128]⟩ : Shape).Idx → EReal)
    (W1 : (⟨2, ![128, 64]⟩ : Shape).Idx → EReal) (b1 : (⟨1, ![64]⟩ : Shape).Idx → EReal)
    (W2 : (⟨2, ![64, 4]⟩ : Shape).Idx → EReal) (b2 : (⟨1, ![4]⟩ : Shape).Idx → EReal)
    (P : Fin 12800) (p : Fin 1600) (q : Fin 4)
    (hx : ∀ k : Fin 160, x0 (ix2 p k) = X (ix2 P k))
    (h1 : ∀ (k : Fin 160) (j : Fin 128), x1 (ix2 k j) = W0 (ix2 k j)) (h2 : ∀ j : Fin 128, x2 (ix1 j) = b0 (ix1 j))
    (h3 : ∀ (k : Fin 128) (j : Fin 64), x3 (ix2 k j) = W1 (ix2 k j)) (h4 : ∀ j : Fin 64, x4 (ix1 j) = b1 (ix1 j))
    (h5 : ∀ (k : Fin 64) (j : Fin 4), x5 (ix2 k j) = W2 (ix2 k j)) (h6 : ∀ j : Fin 4, x6 (ix1 j) = b2 (ix1 j)) :
    k1_pay1 (F := Ideal) x0 x1 x2 x3 x4 x5 x6 (ix2 p q) = nodeNet (F := Ideal) X W0 b0 W1 b1 W2 b2 (ix2 P q) := by
  unfold k1_pay1 nodeNet
  dsimp only
  refine layer_row none none _ _ _ _ _ _ P p q (fun k => ?_) (fun k => h5 k q) ?_
  · refine relu_row _ _ (ix2 p k) (ix2 P k) _ ?_
    refine layer_row none none _ _ _ _ _ _ P p k (fun k' => ?_) (fun k' => h3 k' k) ?_
    · refine layer_row none none _ _ _ _ _ _ P p k' (fun k'' => ?_) (fun k'' => h1 k'' k') ?_
      · exact (congrFun (shapeCast_self x0 _) _).trans (hx k'')
      · exact (castRow_apply x2 _ _ p k').trans ((h2 k').trans (inDimRow_apply b0 _ _ P k').symm)
    · exact (castRow_apply x4 _ _ p k).trans ((h4 k).trans (inDimRow_apply b1 _ _ P k).symm)
  · exact (castRow_apply x6 _ _ p q).trans ((h6 q).trans (inDimRow_apply b2 _ _ P q).symm)

/-! ## From the blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- Where each window's block sits at point `t`: the features' and the output's at block row `t`, every weight and bias whole. -/
theorem index_facts : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = t.val
    ∧ win1_7.index t (1 : Fin 2) = 0 :=
  (by decide +kernel : ∀ t : Fin grid1.N, _)

/-- Point `t` writes back block `t` of the whole-array network of the arrays as the region finds them. -/
theorem flushed_eq (c : Dev nD) (t : Fin cfg1.N) :
    (dat V c).flushed 7 t = ((cfg1.win 7).blk t).view.read (Elt Ideal)
      (nodeNet (F := Ideal) (V c main_v85) (V c main_arg10) (V c main_arg11) (V c main_arg12) (V c main_arg13) (V c main_arg14) (V c main_arg15)) := by
  show (cfg1.win 7).cut (grid1.coords t) ((dat V c).after 7 t) = _
  rw [after7]
  unfold outBlock
  rw [View.canon_unit_zero zero2]
  simp only [View.ld_unit_zero (S := S1600x160) zero2, View.ld_unit_zero (S := S160x128) zero2, View.ld_unit_zero (S := S128) zero1, View.ld_unit_zero (S := S128x64) zero2, View.ld_unit_zero (S := S64) zero1, View.ld_unit_zero (S := S64x4) zero2, View.ld_unit_zero (S := S4) zero1]
  obtain ⟨e00, e01, e10, e11, e20, e30, e31, e40, e50, e51, e60, e70, e71⟩ := index_facts t
  have ht : t.val < 8 := lt_of_lt_of_eq t.isLt N_1
  funext y
  obtain ⟨p, q, rfl⟩ : ∃ (p : Fin 1600) (q : Fin 4), y = ix2 p q := ⟨y 0, y 1, eq_ix2 y⟩
  have hp : p.val < 1600 := p.isLt
  have hP : t.val * 1600 + p.val < 12800 := by omega
  show k1_pay1 (F := Ideal) (blockAt V c 0 t) (blockAt V c 1 t) (blockAt V c 2 t) (blockAt V c 3 t) (blockAt V c 4 t) (blockAt V c 5 t) (blockAt V c 6 t) (ix2 p q)
      = nodeNet (F := Ideal) (V c main_v85) (V c main_arg10) (V c main_arg11) (V c main_arg12) (V c main_arg13) (V c main_arg14) (V c main_arg15) (((cfg1.win 7).blk t).view.emb (ix2 p q))
  have hemb : ((cfg1.win 7).blk t).view.emb (ix2 p q) = ix2 (⟨t.val * 1600 + p.val, hP⟩ : Fin 12800) q := by
    funext a; apply Fin.ext
    match a with
    | ⟨0, _⟩ => show win1_7.index t (0 : Fin 2) * 1600 + 1 * p.val = t.val * 1600 + p.val; omega
    | ⟨1, _⟩ => show win1_7.index t (1 : Fin 2) * 4 + 1 * q.val = q.val; omega
  rw [hemb]
  refine payload_apply _ _ _ _ _ _ _ _ _ _ _ _ _ _ ⟨t.val * 1600 + p.val, hP⟩ p q (fun k => ?_) (fun k j => ?_) (fun j => ?_) (fun k j => ?_) (fun j => ?_)
    (fun k j => ?_) (fun j => ?_)
  · show V c main_v85 (((cfg1.win 0).blk t).view.emb (ix2 p k)) = V c main_v85 (ix2 (⟨t.val * 1600 + p.val, hP⟩ : Fin 12800) k)
    refine congrArg _ (funext fun a => Fin.ext ?_)
    match a with
    | ⟨0, _⟩ => show win1_0.index t (0 : Fin 2) * 1600 + 1 * p.val = t.val * 1600 + p.val; omega
    | ⟨1, _⟩ => show win1_0.index t (1 : Fin 2) * 160 + 1 * k.val = k.val; omega
  · show V c main_arg10 (((cfg1.win 1).blk t).view.emb (ix2 k j)) = V c main_arg10 (ix2 k j)
    refine congrArg _ (funext fun a => Fin.ext ?_)
    match a with
    | ⟨0, _⟩ => show win1_1.index t (0 : Fin 2) * 160 + 1 * k.val = k.val; omega
    | ⟨1, _⟩ => show win1_1.index t (1 : Fin 2) * 128 + 1 * j.val = j.val; omega
  · show V c main_arg11 (((cfg1.win 2).blk t).view.emb (ix1 j)) = V c main_arg11 (ix1 j)
    refine congrArg _ (funext fun a => Fin.ext ?_)
    match a with
    | ⟨0, _⟩ => show win1_2.index t (0 : Fin 1) * 128 + 1 * j.val = j.val; omega
  · show V c main_arg12 (((cfg1.win 3).blk t).view.emb (ix2 k j)) = V c main_arg12 (ix2 k j)
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * j.val = j.val; omega
  · show V c main_arg13 (((cfg1.win 4).blk t).view.emb (ix1 j)) = V c main_arg13 (ix1 j)
    refine congrArg _ (funext fun a => Fin.ext ?_)
    match a with
    | ⟨0, _⟩ => show win1_4.index t (0 : Fin 1) * 64 + 1 * j.val = j.val; omega
  · show V c main_arg14 (((cfg1.win 5).blk t).view.emb (ix2 k j)) = V c main_arg14 (ix2 k j)
    refine congrArg _ (funext fun a => Fin.ext ?_)
    match a with
    | ⟨0, _⟩ => show win1_5.index t (0 : Fin 2) * 64 + 1 * k.val = k.val; omega
    | ⟨1, _⟩ => show win1_5.index t (1 : Fin 2) * 4 + 1 * j.val = j.val; omega
  · show V c main_arg15 (((cfg1.win 6).blk t).view.emb (ix1 j)) = V c main_arg15 (ix1 j)
    refine congrArg _ (funext fun a => Fin.ext ?_)
    match a with
    | ⟨0, _⟩ => show win1_6.index t (0 : Fin 1) * 4 + 1 * j.val = j.val; omega

/-- An index of the output array is in point `t`'s block iff each coordinate is in the block's range on its axis. -/
theorem mem_blk (t : Fin cfg1.N) (i : S12800x4.Idx) :
    i ∈ ((cfg1.win 7).blk t).view.set ↔ ∀ a : Fin 2, win1_7.index t a * S1600x4.size a ≤ (i a).val ∧ (i a).val < win1_7.index t a * S1600x4.size a + S1600x4.size a := by
  show i ∈ ((View.whole main_v88).slice (win1_7.rect t)).set ↔ _
  rw [View.set_slice_whole, Rect.mem_set_unit]
  exact Iff.rfl

/-- The 8 blocks tile the output's rows: row `r` is in the block of point `r / 1600`. -/
theorem covered (i : S12800x4.Idx) :
    ∃ t : Fin cfg1.N, (cfg1.win 7).flush t = true ∧ i ∈ ((cfg1.win 7).blk t).view.set := by
  have hi0 : (i 0).val < 12800 := (i 0).isLt
  have hi1 : (i 1).val < 4 := (i 1).isLt
  have hN : ((i 0).val / 1600) < cfg1.N := lt_of_lt_of_eq (by omega : (i 0).val / 1600 < 8) N_1.symm
  obtain ⟨-, -, -, -, -, -, -, -, -, -, -, e70, e71⟩ := index_facts ⟨(i 0).val / 1600, hN⟩
  refine ⟨⟨(i 0).val / 1600, hN⟩, flush1_7 _, ?_⟩
  rw [mem_blk]
  intro a
  match a with
  | ⟨0, _⟩ =>
    show win1_7.index ⟨(i 0).val / 1600, hN⟩ (0 : Fin 2) * 1600 ≤ (i 0).val ∧ (i 0).val < win1_7.index ⟨(i 0).val / 1600, hN⟩ (0 : Fin 2) * 1600 + 1600
    rw [e70]
    show (i 0).val / 1600 * 1600 ≤ (i 0).val ∧ (i 0).val < (i 0).val / 1600 * 1600 + 1600
    omega
  | ⟨1, _⟩ =>
    show win1_7.index ⟨(i 0).val / 1600, hN⟩ (1 : Fin 2) * 4 ≤ (i 1).val ∧ (i 1).val < win1_7.index ⟨(i 0).val / 1600, hN⟩ (1 : Fin 2) * 4 + 4
    omega

/-- After the region its output array is the whole-array network of the arrays as the region found them. -/
theorem final (c : Dev nD) : (dat V c).arrAt 7 cfg1.N
    = nodeNet (F := Ideal) (V c main_v85) (V c main_arg10) (V c main_arg11) (V c main_arg12) (V c main_arg13) (V c main_arg14) (V c main_arg15) :=
  (dat V c).arrAt_eq_of_cover 7 _ (fun t _ => flushed_eq V c t) covered

end Cert.KernelIdeal.Node

end
-- ==== Proof.KernelIdealEdgeValue.lean ====
/-
  What the edge region leaves in its output array, on the extended reals: the edge network on every row of the
  feature array the region was entered with.

  Grid point `t` reads rows `4096·t … 4096·t + 4095` of the features and the weights and biases whole, and writes back the
  same rows of the output. Entry `(p, q)` of the block it stores is  relu ((x·W₀ + b₀)·W₁ + b₁)·W₂ + b₂  at row `p` of the
  block, which is row `4096·t + p` of the features: layer by layer the block's product on the vector unit is the
  host's product of the whole array at that row (the same sums term by term; the rounding to bf16 on the way into each
  product is the identity here), so the point writes block `t` of the whole-array network. The 75 blocks tile the rows.
-/
import proofs.«122221_j57234734186752_1_alg».proof.Proof.KernelIdealEdgeBody
import proofs.«122221_j57234734186752_1_alg».proof.Proof.LibAffineRows
import proofs.«122221_j57234734186752_1_alg».proof.Proof.RefNets
import Idealize.ShloMosaic.Lib.Pipeline.Value

set_option maxRecDepth 16384

noncomputable section

namespace Cert.KernelIdeal.Edge

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.ReferenceIdeal.Nets (edgeNet)
open Cert.Lib.AffineRows

/-! ## The body's expression at an entry -/

/-- Entry `(p, q)` of the stored block is the whole-array network at `(P, q)` when row `p` of the block read is row `P`
    of the features and the weights and biases read are the whole arrays. -/
theorem payload_apply (x0 : Vec Ideal S4096x256 .bf16) (x1 : Vec Ideal S256x256 .f32) (x2 : Vec Ideal S256 .f32) (x3 : Vec Ideal S256x128 .f32)
    (x4 : Vec Ideal S128 .f32) (x5 : Vec Ideal S128x1 .f32) (x6 : Vec Ideal S1 .f32)
    (X : (⟨2, ![307200, 256]⟩ : Shape).Idx → EReal) (W0 : (⟨2, ![256, 256]⟩ : Shape).Idx → EReal) (b0 : (⟨1, ![256]⟩ : Shape).Idx → EReal)
    (W1 : (⟨2, ![256, 128]⟩ : Shape).Idx → EReal) (b1 : (⟨1, ![128]⟩ : Shape).Idx → EReal)
    (W2 : (⟨2, ![128, 1]⟩ : Shape).Idx → EReal) (b2 : (⟨1, ![1]⟩ : Shape).Idx → EReal)
    (P : Fin 307200) (p : Fin 4096) (q : Fin 1)
    (hx : ∀ k : Fin 256, x0 (ix2 p k) = X (ix2 P k))
    (h1 : ∀ (k : Fin 256) (j : Fin 256), x1 (ix2 k j) = W0 (ix2 k j)) (h2 : ∀ j : Fin 256, x2 (ix1 j) = b0 (ix1 j))
    (h3 : ∀ (k : Fin 256) (j : Fin 128), x3 (ix2 k j) = W1 (ix2 k j)) (h4 : ∀ j : Fin 128, x4 (ix1 j) = b1 (ix1 j))
    (h5 : ∀ (k : Fin 128) (j : Fin 1), x5 (ix2 k j) = W2 (ix2 k j)) (h6 : ∀ j : Fin 1, x6 (ix1 j) = b2 (ix1 j)) :
    k0_pay1 (F := Ideal) x0 x1 x2 x3 x4 x5 x6 (ix2 p q) = edgeNet (F := Ideal) X W0 b0 W1 b1 W2 b2 (ix2 P q) := by
  unfold k0_pay1 edgeNet
  dsimp only
  refine layer_row none none _ _ _ _ _ _ P p q (fun k => ?_) (fun k => h5 k q) ?_
  · refine relu_row _ _ (ix2 p k) (ix2 P k) _ ?_
    refine layer_row none none _ _ _ _ _ _ P p k (fun k' => ?_) (fun k' => h3 k' k) ?_
    · refine layer_row none none _ _ _ _ _ _ P p k' (fun k'' => ?_) (fun k'' => h1 k'' k') ?_
      · exact (congrFun (shapeCast_self x0 _) _).trans (hx k'')
      · exact (castRow_apply x2 _ _ p k').trans ((h2 k').trans (inDimRow_apply b0 _ _ P k').symm)
    · exact (castRow_apply x4 _ _ p k).trans ((h4 k).trans (inDimRow_apply b1 _ _ P k).symm)
  · exact (castRow_apply x6 _ _ p q).trans ((h6 q).trans (inDimRow_apply b2 _ _ P q).symm)

/-! ## From the blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- Where each window's block sits at point `t`: the features' and the output's at block row `t`, every weight and bias whole. -/
theorem index_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = t.val
    ∧ win0_7.index t (1 : Fin 2) = 0 :=
  (by decide +kernel : ∀ t : Fin grid0.N, _)

/-- Point `t` writes back block `t` of the whole-array network of the arrays as the region finds them. -/
theorem flushed_eq (c : Dev nD) (t : Fin cfg0.N) :
    (dat V c).flushed 7 t = ((cfg0.win 7).blk t).view.read (Elt Ideal)
      (edgeNet (F := Ideal) (V c main_v84) (V c main_arg4) (V c main_arg5) (V c main_arg6) (V c main_arg7) (V c main_arg8) (V c main_arg9)) := by
  show (cfg0.win 7).cut (grid0.coords t) ((dat V c).after 7 t) = _
  rw [after7]
  unfold outBlock
  rw [View.canon_unit_zero zero2]
  simp only [View.ld_unit_zero (S := S4096x256) zero2, View.ld_unit_zero (S := S256x256) zero2, View.ld_unit_zero (S := S256) zero1, View.ld_unit_zero (S := S256x128) zero2, View.ld_unit_zero (S := S128) zero1, View.ld_unit_zero (S := S128x1) zero2, View.ld_unit_zero (S := S1) zero1]
  obtain ⟨e00, e01, e10, e11, e20, e30, e31, e40, e50, e51, e60, e70, e71⟩ := index_facts t
  have ht : t.val < 75 := lt_of_lt_of_eq t.isLt N_0
  funext y
  obtain ⟨p, q, rfl⟩ : ∃ (p : Fin 4096) (q : Fin 1), y = ix2 p q := ⟨y 0, y 1, eq_ix2 y⟩
  have hp : p.val < 4096 := p.isLt
  have hP : t.val * 4096 + p.val < 307200 := by omega
  show k0_pay1 (F := Ideal) (blockAt V c 0 t) (blockAt V c 1 t) (blockAt V c 2 t) (blockAt V c 3 t) (blockAt V c 4 t) (blockAt V c 5 t) (blockAt V c 6 t) (ix2 p q)
      = edgeNet (F := Ideal) (V c main_v84) (V c main_arg4) (V c main_arg5) (V c main_arg6) (V c main_arg7) (V c main_arg8) (V c main_arg9) (((cfg0.win 7).blk t).view.emb (ix2 p q))
  have hemb : ((cfg0.win 7).blk t).view.emb (ix2 p q) = ix2 (⟨t.val * 4096 + p.val, hP⟩ : Fin 307200) q := by
    funext a; apply Fin.ext
    match a with
    | ⟨0, _⟩ => show win0_7.index t (0 : Fin 2) * 4096 + 1 * p.val = t.val * 4096 + p.val; omega
    | ⟨1, _⟩ => show win0_7.index t (1 : Fin 2) * 1 + 1 * q.val = q.val; omega
  rw [hemb]
  refine payload_apply _ _ _ _ _ _ _ _ _ _ _ _ _ _ ⟨t.val * 4096 + p.val, hP⟩ p q (fun k => ?_) (fun k j => ?_) (fun j => ?_) (fun k j => ?_) (fun j => ?_)
    (fun k j => ?_) (fun j => ?_)
  · show V c main_v84 (((cfg0.win 0).blk t).view.emb (ix2 p k)) = V c main_v84 (ix2 (⟨t.val * 4096 + p.val, hP⟩ : Fin 307200) k)
    refine congrArg _ (funext fun a => Fin.ext ?_)
    match a with
    | ⟨0, _⟩ => show win0_0.index t (0 : Fin 2) * 4096 + 1 * p.val = t.val * 4096 + p.val; omega
    | ⟨1, _⟩ => show win0_0.index t (1 : Fin 2) * 256 + 1 * k.val = k.val; omega
  · show V c main_arg4 (((cfg0.win 1).blk t).view.emb (ix2 k j)) = V c main_arg4 (ix2 k j)
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * j.val = j.val; omega
  · show V c main_arg5 (((cfg0.win 2).blk t).view.emb (ix1 j)) = V c main_arg5 (ix1 j)
    refine congrArg _ (funext fun a => Fin.ext ?_)
    match a with
    | ⟨0, _⟩ => show win0_2.index t (0 : Fin 1) * 256 + 1 * j.val = j.val; omega
  · show V c main_arg6 (((cfg0.win 3).blk t).view.emb (ix2 k j)) = V c main_arg6 (ix2 k j)
    refine congrArg _ (funext fun a => Fin.ext ?_)
    match a with
    | ⟨0, _⟩ => show win0_3.index t (0 : Fin 2) * 256 + 1 * k.val = k.val; omega
    | ⟨1, _⟩ => show win0_3.index t (1 : Fin 2) * 128 + 1 * j.val = j.val; omega
  · show V c main_arg7 (((cfg0.win 4).blk t).view.emb (ix1 j)) = V c main_arg7 (ix1 j)
    refine congrArg _ (funext fun a => Fin.ext ?_)
    match a with
    | ⟨0, _⟩ => show win0_4.index t (0 : Fin 1) * 128 + 1 * j.val = j.val; omega
  · show V c main_arg8 (((cfg0.win 5).blk t).view.emb (ix2 k j)) = V c main_arg8 (ix2 k j)
    refine congrArg _ (funext fun a => Fin.ext ?_)
    match a with
    | ⟨0, _⟩ => show win0_5.index t (0 : Fin 2) * 128 + 1 * k.val = k.val; omega
    | ⟨1, _⟩ => show win0_5.index t (1 : Fin 2) * 1 + 1 * j.val = j.val; omega
  · show V c main_arg9 (((cfg0.win 6).blk t).view.emb (ix1 j)) = V c main_arg9 (ix1 j)
    refine congrArg _ (funext fun a => Fin.ext ?_)
    match a with
    | ⟨0, _⟩ => show win0_6.index t (0 : Fin 1) * 1 + 1 * j.val = j.val; omega

/-- An index of the output array is in point `t`'s block iff each coordinate is in the block's range on its axis. -/
theorem mem_blk (t : Fin cfg0.N) (i : S307200x1.Idx) :
    i ∈ ((cfg0.win 7).blk t).view.set ↔ ∀ a : Fin 2, win0_7.index t a * S4096x1.size a ≤ (i a).val ∧ (i a).val < win0_7.index t a * S4096x1.size a + S4096x1.size a := by
  show i ∈ ((View.whole main_v86).slice (win0_7.rect t)).set ↔ _
  rw [View.set_slice_whole, Rect.mem_set_unit]
  exact Iff.rfl

/-- The 75 blocks tile the output's rows: row `r` is in the block of point `r / 4096`. -/
theorem covered (i : S307200x1.Idx) :
    ∃ t : Fin cfg0.N, (cfg0.win 7).flush t = true ∧ i ∈ ((cfg0.win 7).blk t).view.set := by
  have hi0 : (i 0).val < 307200 := (i 0).isLt
  have hi1 : (i 1).val < 1 := (i 1).isLt
  have hN : ((i 0).val / 4096) < cfg0.N := lt_of_lt_of_eq (by omega : (i 0).val / 4096 < 75) N_0.symm
  obtain ⟨-, -, -, -, -, -, -, -, -, -, -, e70, e71⟩ := index_facts ⟨(i 0).val / 4096, hN⟩
  refine ⟨⟨(i 0).val / 4096, hN⟩, flush0_7 _, ?_⟩
  rw [mem_blk]
  intro a
  match a with
  | ⟨0, _⟩ =>
    show win0_7.index ⟨(i 0).val / 4096, hN⟩ (0 : Fin 2) * 4096 ≤ (i 0).val ∧ (i 0).val < win0_7.index ⟨(i 0).val / 4096, hN⟩ (0 : Fin 2) * 4096 + 4096
    rw [e70]
    show (i 0).val / 4096 * 4096 ≤ (i 0).val ∧ (i 0).val < (i 0).val / 4096 * 4096 + 4096
    omega
  | ⟨1, _⟩ =>
    show win0_7.index ⟨(i 0).val / 4096, hN⟩ (1 : Fin 2) * 1 ≤ (i 1).val ∧ (i 1).val < win0_7.index ⟨(i 0).val / 4096, hN⟩ (1 : Fin 2) * 1 + 1
    omega

/-- After the region its output array is the whole-array network of the arrays as the region found them. -/
theorem final (c : Dev nD) : (dat V c).arrAt 7 cfg0.N
    = edgeNet (F := Ideal) (V c main_v84) (V c main_arg4) (V c main_arg5) (V c main_arg6) (V c main_arg7) (V c main_arg8) (V c main_arg9) :=
  (dat V c).arrAt_eq_of_cover 7 _ (fun t _ => flushed_eq V c t) covered

end Cert.KernelIdeal.Edge

end
-- ==== Proof.KernelIdealResults.lean ====
/-
  The idealized program's two results as functions of the argument arrays.

  The node result is what the node region leaves in its output array: the node network on every row of the node
  features, which entered the region as the host operations built them. The edge result is the edge region's one-column
  output with its unit axis dropped by the host operation between the regions. On the extended reals the rounding of
  the features to bf16 is the identity, so the features are exactly the arrays the reference builds (its own gathers and
  concatenations of the unrounded arguments), and the two results are the reference's two terms of the arguments.
-/
import proofs.«122221_j57234734186752_1_alg».proof.Proof.KernelIdealHost
import proofs.«122221_j57234734186752_1_alg».proof.Proof.KernelIdealNodeValue
import proofs.«122221_j57234734186752_1_alg».proof.Proof.KernelIdealEdgeValue

set_option maxRecDepth 16384

noncomputable section

namespace Cert.KernelIdeal.Whole

open Cert.KernelIdeal Cert.KernelIdeal.Gen
open Idealize.ShloMosaic Idealize.ShloMosaic.TcCoe
open Idealize.SL Idealize.SL.Sem
open Cert.ReferenceIdeal.Nets (nodeIn edgeIn nodeNet edgeNet edgeOut meanRows)

/-- On the extended reals the node features the kernel's host operations build are the reference's. -/
theorem nodeFeatures_eq (a0 : (⟨S12800x16, .f32⟩ : BufTy).Contents (Elt Ideal)) (a1 : (⟨S12800x64, .f32⟩ : BufTy).Contents (Elt Ideal))
    (a2 : (⟨S12800x8, .f32⟩ : BufTy).Contents (Elt Ideal)) (a3 : (⟨S12800x8, .f32⟩ : BufTy).Contents (Elt Ideal))
    (a18 : (⟨S12800, .i32⟩ : BufTy).Contents (Elt Ideal)) :
    (nodeFeatures (F := Ideal) a0 a1 a2 a3 a18 : S12800x160.Idx → EReal) = nodeIn (F := Ideal) a0 a1 a2 a3 a18 := by
  unfold nodeFeatures nodeIn meanRows
  rfl

set_option maxRecDepth 65536 in
/-- On the extended reals the edge features the kernel's host operations build are the reference's. -/
theorem edgeFeatures_eq (a0 : (⟨S12800x16, .f32⟩ : BufTy).Contents (Elt Ideal)) (a1 : (⟨S12800x64, .f32⟩ : BufTy).Contents (Elt Ideal))
    (a2 : (⟨S12800x8, .f32⟩ : BufTy).Contents (Elt Ideal)) (a3 : (⟨S12800x8, .f32⟩ : BufTy).Contents (Elt Ideal))
    (a16 a17 : (⟨S307200, .i32⟩ : BufTy).Contents (Elt Ideal)) (a18 : (⟨S12800, .i32⟩ : BufTy).Contents (Elt Ideal)) :
    (edgeFeatures (F := Ideal) a0 a1 a2 a3 a16 a17 a18 : S307200x256.Idx → EReal) = edgeIn (F := Ideal) a0 a1 a2 a3 a16 a17 a18 := by
  unfold edgeFeatures edgeIn meanRows
  rfl

variable (m : (ℓ : Loc nD τ sig) → Buf (Elt Ideal) ℓ) (ρ : Dev nD → PrngReg)

/-- The node result. -/
theorem final_node (c : Dev nD) : W4 m ρ c (Proc.devRef .tc main_v88)
    = nodeNet (F := Ideal) (nodeIn (F := Ideal) (arg m c main_arg0) (arg m c main_arg1) (arg m c main_arg2) (arg m c main_arg3) (arg m c main_arg18))
        (arg m c main_arg10) (arg m c main_arg11) (arg m c main_arg12) (arg m c main_arg13) (arg m c main_arg14) (arg m c main_arg15) := by
  refine (W4_arr m ρ c 7).trans ?_
  rw [Node.final (V3 m ρ) c, entry1_nodeFeatures m ρ c, nodeFeatures_eq,
    entry1_arg m ρ c main_arg10 (by decide) (by decide) (by decide),
    entry1_arg m ρ c main_arg11 (by decide) (by decide) (by decide),
    entry1_arg m ρ c main_arg12 (by decide) (by decide) (by decide),
    entry1_arg m ρ c main_arg13 (by decide) (by decide) (by decide),
    entry1_arg m ρ c main_arg14 (by decide) (by decide) (by decide),
    entry1_arg m ρ c main_arg15 (by decide) (by decide) (by decide)]

/-- The edge region's output array. -/
theorem exit_edge (c : Dev nD) : W2 m ρ c (Proc.devRef .tc main_v86)
    = edgeNet (F := Ideal) (edgeIn (F := Ideal) (arg m c main_arg0) (arg m c main_arg1) (arg m c main_arg2) (arg m c main_arg3) (arg m c main_arg16) (arg m c main_arg17) (arg m c main_arg18))
        (arg m c main_arg4) (arg m c main_arg5) (arg m c main_arg6) (arg m c main_arg7) (arg m c main_arg8) (arg m c main_arg9) := by
  refine (W2_arr m ρ c 7).trans ?_
  rw [Edge.final (V1 m ρ) c, show V1 m ρ c main_v84 = _ from entry_edgeFeatures m ρ c, edgeFeatures_eq,
    entry0_arg m ρ c main_arg4 (by decide),
    entry0_arg m ρ c main_arg5 (by decide),
    entry0_arg m ρ c main_arg6 (by decide),
    entry0_arg m ρ c main_arg7 (by decide),
    entry0_arg m ρ c main_arg8 (by decide),
    entry0_arg m ρ c main_arg9 (by decide)]

/-- The edge result: that array's one column as a vector. -/
theorem final_edge (c : Dev nD) : W4 m ρ c (Proc.devRef .tc main_v87)
    = edgeOut (F := Ideal) (edgeIn (F := Ideal) (arg m c main_arg0) (arg m c main_arg1) (arg m c main_arg2) (arg m c main_arg3) (arg m c main_arg16) (arg m c main_arg17) (arg m c main_arg18))
        (arg m c main_arg4) (arg m c main_arg5) (arg m c main_arg6) (arg m c main_arg7) (arg m c main_arg8) (arg m c main_arg9) := by
  refine (W4_of_ne m ρ c main_v87 (by decide)).trans ?_
  show StableHlo.after hostOps1 (W2 m ρ c) (Proc.devRef .tc main_v87) = _
  dsimp only [hostOps1]
  simp only [StableHlo.after_cons, StableHlo.after_nil]
  rw [StableHlo.reshape_result]
  unfold edgeOut
  rw [← exit_edge m ρ c]
  rfl

/-- Every weakly fair execution of the idealized program terminates, nothing faulting, with the two results at the
    reference's two terms of the arguments, and the arguments unchanged. -/
theorem results : θ_run defs (onTc (τ := τ) (main (F := Ideal))) ⟨m, fun _ => 0, ρ⟩ (fun r => ∀ c : Dev nD,
      r.2.mem ((c.tc : Thread nD τ).loc main_v88)
          = nodeNet (F := Ideal) (nodeIn (F := Ideal) (arg m c main_arg0) (arg m c main_arg1) (arg m c main_arg2) (arg m c main_arg3) (arg m c main_arg18)) (arg m c main_arg10) (arg m c main_arg11) (arg m c main_arg12) (arg m c main_arg13) (arg m c main_arg14) (arg m c main_arg15)
      ∧ r.2.mem ((c.tc : Thread nD τ).loc main_v87)
          = edgeOut (F := Ideal) (edgeIn (F := Ideal) (arg m c main_arg0) (arg m c main_arg1) (arg m c main_arg2) (arg m c main_arg3) (arg m c main_arg16) (arg m c main_arg17) (arg m c main_arg18)) (arg m c main_arg4) (arg m c main_arg5) (arg m c main_arg6) (arg m c main_arg7) (arg m c main_arg8) (arg m c main_arg9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v88 (by decide))).trans (final_node m ρ c),
     (h c _ (mem_uc main_v87 (by decide))).trans (final_edge m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c)⟩)
    (run_all m ρ)

end Cert.KernelIdeal.Whole

end
-- ==== Proof.lean ====
/-
  The certificate's claim, assembled.

  Both printed kernel programs run as four segments — the host operations that build the two feature arrays, the edge
  network's region, the host operation that drops the edge output's unit axis, the node network's region — and leave
  the nineteen argument arrays as launched: no host operation writes an argument, and each region only reads the ones
  it takes (its blocks of the features, the weights and biases whole). The reference is a straight line of host
  operations; its run is read back with both results named.

  The ideal pass rewrote nothing, so the idealized kernel is the printed text read on the extended reals. There the two
  programs compute the same two arrays. The per-graph mean, the row gathers and the concatenations are the same host
  operations on both sides, the kernel's rounding of the features to bf16 before them being the identity. Each region
  applies  x ↦ relu ((x·W₀ + b₀)·W₁ + b₁)·W₂ + b₂  to its block of rows, and each layer's product of a block of rows by
  the whole weight is, entry by entry, the host's product of the whole feature array at that row — the same sum term by
  term, so nothing is asked of the inputs beyond what the frames ask, and no finiteness is used.
-/
import proofs.«122221_j57234734186752_1_alg».proof.Defs
import proofs.«122221_j57234734186752_1_alg».proof.Proof.KernelRun
import proofs.«122221_j57234734186752_1_alg».proof.Proof.KernelIdealResults
import proofs.«122221_j57234734186752_1_alg».proof.Proof.RefNets
import proofs.«122221_j57234734186752_1_alg».proof.Proof.Gen.Kernel
import proofs.«122221_j57234734186752_1_alg».proof.Proof.Gen.KernelIdeal
import proofs.«122221_j57234734186752_1_alg».proof.Proof.Gen.ReferenceIdeal
import proofs.«122221_j57234734186752_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Whole.frame m ρ

theorem frame_kernelIdeal : Cert.frame_KernelIdeal := fun m ρ _ => Cert.KernelIdeal.Whole.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Nets.run (F := Ideal) m ρ)

/-- From memories agreeing on the arguments both idealized programs end with the same two arrays: the node network of
    the node features and the edge network's column of the edge features, as functions of the arguments. -/
theorem algebraic : Cert.algebraic_KernelIdeal_ReferenceIdeal := by
  intro m ρ m' ρ' _ hagree
  refine ⟨_, _, Cert.KernelIdeal.Whole.results m ρ, ?_⟩
  refine (θ_run Cert.ReferenceIdeal.defs _ _).mono (fun _ h c => ⟨(h c).1.trans ?_, (h c).2.1.trans ?_, (h c).2.2⟩)
    (Cert.ReferenceIdeal.Nets.run (F := Ideal) m' ρ')
  · obtain ⟨g0, g1, g2, g3, g4, g5, g6, g7, g8, g9, g10, g11, g12, g13, g14, g15, g16, g17, g18⟩ := hagree c
    unfold Cert.ReferenceIdeal.Nets.nodeResult Cert.ReferenceIdeal.Nets.arg Cert.KernelIdeal.Whole.arg
    rw [g0, g1, g2, g3, g18, g10, g11, g12, g13, g14, g15]
  · obtain ⟨g0, g1, g2, g3, g4, g5, g6, g7, g8, g9, g10, g11, g12, g13, g14, g15, g16, g17, g18⟩ := hagree c
    unfold Cert.ReferenceIdeal.Nets.edgeResult Cert.ReferenceIdeal.Nets.arg Cert.KernelIdeal.Whole.arg
    rw [g0, g1, g2, g3, g16, g17, g18, g4, g5, g6, g7, g8, g9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
